-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)) (v1 : (c : Dev Cert.KernelIdeal.nD) → Buf (Elt Ideal) ((c.tc : Thread Cert.KernelIdeal.nD Cert.KernelIdeal.τ).loc Cert.KernelIdeal.main_v14)) (v2 : (c : Dev Cert.KernelIdeal.nD) → Buf (Elt Ideal) ((c.tc : Thread Cert.KernelIdeal.nD Cert.KernelIdeal.τ).loc Cert.KernelIdeal.main_v26)) (v3 : (c : Dev Cert.KernelIdeal.nD) → Buf (Elt Ideal) ((c.tc : Thread Cert.KernelIdeal.nD Cert.KernelIdeal.τ).loc Cert.KernelIdeal.main_v29)) (v4 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_v14) = v1 c
          ∧ r.2.mem ((c.tc : Thread Cert.KernelIdeal.nD Cert.KernelIdeal.τ).loc Cert.KernelIdeal.main_v26) = v2 c
          ∧ r.2.mem ((c.tc : Thread Cert.KernelIdeal.nD Cert.KernelIdeal.τ).loc Cert.KernelIdeal.main_v29) = v3 c
          ∧ r.2.mem ((c.tc : Thread Cert.KernelIdeal.nD Cert.KernelIdeal.τ).loc Cert.KernelIdeal.main_v32) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_v12) = v1 c
          ∧ r.2.mem ((c.tc : Thread Cert.ReferenceIdeal.nD Cert.ReferenceIdeal.τ).loc Cert.ReferenceIdeal.main_v44) = v2 c
          ∧ r.2.mem ((c.tc : Thread Cert.ReferenceIdeal.nD Cert.ReferenceIdeal.τ).loc Cert.ReferenceIdeal.main_v51) = v3 c
          ∧ r.2.mem ((c.tc : Thread Cert.ReferenceIdeal.nD Cert.ReferenceIdeal.τ).loc Cert.ReferenceIdeal.main_v54) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S5000000x3 : Shape := ⟨2, ![5000000, 3]⟩
abbrev S200000x1 : Shape := ⟨2, ![200000, 1]⟩
abbrev S200000x5 : Shape := ⟨2, ![200000, 5]⟩
abbrev S32 : Shape := ⟨1, ![32]⟩
abbrev S32x1 : Shape := ⟨2, ![32, 1]⟩
abbrev S2x5000000 : Shape := ⟨2, ![2, 5000000]⟩
abbrev S200000 : Shape := ⟨1, ![200000]⟩
abbrev S_ : Shape := ⟨0, ![]⟩

class Facts : Prop where
  bcast_S_S5000000x3 : S_.BroadcastsInDim S5000000x3 (![] : Fin 0 → Fin S5000000x3.rank)
  reducesTo_S5000000x3_S_d0_1 : S5000000x3.ReducesTo [0, 1] S_
  h_S_ : 0 < S_.numel
  bcast_S_S200000x1 : S_.BroadcastsInDim S200000x1 (![] : Fin 0 → Fin S200000x1.rank)
  reducesTo_S200000x1_S_d0_1 : S200000x1.ReducesTo [0, 1] S_
  bcast_S_S200000x5 : S_.BroadcastsInDim S200000x5 (![] : Fin 0 → Fin S200000x5.rank)
  reducesTo_S200000x5_S_d0_1 : S200000x5.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_arg4 : FVec F S32 .f32) (main_arg5 : FVec F S32x1 .f32) (main_v13 : IVec S_ 1) (main_v16 : IVec S200000x5 1) : IVec S_ 1 :=
  let main_c_5 : IVec S_ 1 := constantI S_ 1 1#1
  let main_v17 : IVec S_ 1 := (fun x v => Host.reduce IntOp.andi x v reducesTo_S200000x5_S_d0_1 h_S_) main_v16 main_c_5
  let main_v18 : IVec S_ 1 := andi main_v13 main_v17
  let main_v19 : FVec F S32 .f32 := Host.absf main_arg4
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32x1 .f32 := Host.absf main_arg5
  let main_cst_8 : FVec F S_ .f32 := constant S_ .f32 0x7F800000#32
  let main_v25 : FVec F S32x1 .f32 := broadcastInDim S32x1 ![] bcast_S_S32x1 main_cst_8
  let main_v26 : IVec S32x1 1 := cmpf .olt main_v24 main_v25
  let main_c_9 : IVec S_ 1 := constantI S_ 1 1#1
  let main_v27 : IVec S_ 1 := (fun x v => Host.reduce IntOp.andi x v reducesTo_S32x1_S_d0_1 h_S_) main_v26 main_c_9
  let main_v28 : IVec S_ 1 := andi main_v23 main_v27
  main_v28

def fn {F : FTy → Type} [FloatOps F] (main_arg0 : FVec F S5000000x3 .f32) (main_arg1 : FVec F S5000000x3 .f32) (main_arg2 : FVec F S200000x1 .f32) (main_arg3 : FVec F S200000x5 .f32) (main_arg4 : FVec F S32 .f32) (main_arg5 : FVec F S32x1 .f32) (main_arg6 : IVec S2x5000000 32) (main_arg7 : IVec S200000 32) : IVec S_ 1 :=
  let main_v0 : FVec F S5000000x3 .f32 := Host.absf main_arg0
  let main_cst : FVec F S_ .f32 := constant S_ .f32 0x7F800000#32
  let main_v1 : FVec F S5000000x3 .f32 := broadcastInDim S5000000x3 ![] bcast_S_S5000000x3 main_cst
  let main_v2 : IVec S5000000x3 1 := cmpf .olt main_v0 main_v1
  let main_c : IVec S_ 1 := constantI S_ 1 1#1
  let main_v3 : IVec S_ 1 := (fun x v => Host.reduce IntOp.andi x v reducesTo_S5000000x3_S_d0_1 h_S_) main_v2 main_c
  let main_v4 : FVec F S5000000x3 .f32 := Host.absf main_arg1
  let main_cst_0 : FVec F S_ .f32 := constant S_ .f32 0x7F800000#32
  let main_v5 : FVec F S5000000x3 .f32 := broadcastInDim S5000000x3 ![] bcast_S_S5000000x3 main_cst_0
  let main_v6 : IVec S5000000x3 1 := cmpf .olt main_v4 main_v5
  let main_c_1 : IVec S_ 1 := constantI S_ 1 1#1
  let main_v7 : IVec S_ 1 := (fun x v => Host.reduce IntOp.andi x v reducesTo_S5000000x3_S_d0_1 h_S_) main_v6 main_c_1
  let main_v8 : IVec S_ 1 := andi main_v3 main_v7
  let main_v9 : FVec F S200000x1 .f32 := Host.absf main_arg2
  let main_cst_2 : FVec F S_ .f32 := constant S_ .f32 0x7F800000#32
  let main_v10 : FVec F S200000x1 .f32 := broadcastInDim S200000x1 ![] bcast_S_S200000x1 main_cst_2
  let main_v11 : IVec S200000x1 1 := cmpf .olt main_v9 main_v10
  let main_c_3 : IVec S_ 1 := constantI S_ 1 1#1
  let main_v12 : IVec S_ 1 := (fun x v => Host.reduce IntOp.andi x v reducesTo_S200000x1_S_d0_1 h_S_) main_v11 main_c_3
  let main_v13 : IVec S_ 1 := andi main_v8 main_v12
  let main_v14 : FVec F S200000x5 .f32 := Host.absf main_arg3
  let main_cst_4 : FVec F S_ .f32 := constant S_ .f32 0x7F800000#32
  let main_v15 : FVec F S200000x5 .f32 := broadcastInDim S200000x5 ![] bcast_S_S200000x5 main_cst_4
  let main_v16 : IVec S200000x5 1 := cmpf .olt main_v14 main_v15
  fn_part1 (F := F) main_arg4 main_arg5 main_v13 main_v16
-- ==== Kernel.lean ====
abbrev S5000000x3 : Shape := ⟨2, ![5000000, 3]⟩
abbrev S200000x1 : Shape := ⟨2, ![200000, 1]⟩
abbrev S200000x5 : Shape := ⟨2, ![200000, 5]⟩
abbrev S32 : Shape := ⟨1, ![32]⟩
abbrev S32x1 : Shape := ⟨2, ![32, 1]⟩
abbrev S2x5000000 : Shape := ⟨2, ![2, 5000000]⟩
abbrev S200000 : Shape := ⟨1, ![200000]⟩
abbrev S5x6 : Shape := ⟨2, ![5, 6]⟩
abbrev S_ : Shape := ⟨0, ![]⟩
abbrev S5000000x6 : Shape := ⟨2, ![5000000, 6]⟩
abbrev S8000x3 : Shape := ⟨2, ![8000, 3]⟩
abbrev S8000x6 : Shape := ⟨2, ![8000, 6]⟩
abbrev S8000x1 : Shape := ⟨2, ![8000, 1]⟩
abbrev S8000 : Shape := ⟨1, ![8000]⟩
abbrev S200000x6 : Shape := ⟨2, ![200000, 6]⟩
abbrev S2000x1 : Shape := ⟨2, ![2000, 1]⟩
abbrev S2000x5 : Shape := ⟨2, ![2000, 5]⟩
abbrev S2000x6 : Shape := ⟨2, ![2000, 6]⟩
abbrev S1x6 : Shape := ⟨2, ![1, 6]⟩
abbrev S2000x3 : Shape := ⟨2, ![2000, 3]⟩
abbrev S1x5000000 : Shape := ⟨2, ![1, 5000000]⟩
abbrev S5000000 : Shape := ⟨1, ![5000000]⟩
abbrev S200000x3 : Shape := ⟨2, ![200000, 3]⟩
abbrev S5000000x1 : Shape := ⟨2, ![5000000, 1]⟩
abbrev S32x6 : Shape := ⟨2, ![32, 6]⟩

abbrev nBuf : Space → Nat
  | .hbm => 50
  | .vmem => 15
  | .smem => 0
  | _ => 0

abbrev bufTy : (tb : Table) → Fin (tcTables nBuf tb) → BufTy
  | .hbm, ⟨0, _⟩ => ⟨S5000000x3, .f32⟩
  | .hbm, ⟨1, _⟩ => ⟨S5000000x3, .f32⟩
  | .hbm, ⟨2, _⟩ => ⟨S200000x1, .f32⟩
  | .hbm, ⟨3, _⟩ => ⟨S200000x5, .f32⟩
  | .hbm, ⟨4, _⟩ => ⟨S32, .f32⟩
  | .hbm, ⟨5, _⟩ => ⟨S32x1, .f32⟩
  | .hbm, ⟨6, _⟩ => ⟨S2x5000000, .i32⟩
  | .hbm, ⟨7, _⟩ => ⟨S200000, .i32⟩
  | .hbm, ⟨8, _⟩ => ⟨S5x6, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S5000000x6, .f32⟩
  | .hbm, ⟨13, _⟩ => ⟨S200000x6, .f32⟩
  | .hbm, ⟨14, _⟩ => ⟨S200000x6, .f32⟩
  | .hbm, ⟨15, _⟩ => ⟨S1x5000000, .i32⟩
  | .hbm, ⟨16, _⟩ => ⟨S5000000, .i32⟩
  | .hbm, ⟨17, _⟩ => ⟨S_, .f32⟩
  | .hbm, ⟨18, _⟩ => ⟨S200000x3, .f32⟩
  | .hbm, ⟨19, _⟩ => ⟨S5000000x1, .i32⟩
  | .hbm, ⟨20, _⟩ => ⟨S200000x3, .f32⟩
  | .hbm, ⟨21, _⟩ => ⟨S1x5000000, .i32⟩
  | .hbm, ⟨22, _⟩ => ⟨S5000000, .i32⟩
  | .hbm, ⟨23, _⟩ => ⟨S_, .f32⟩
  | .hbm, ⟨24, _⟩ => ⟨S200000x3, .f32⟩
  | .hbm, ⟨25, _⟩ => ⟨S5000000x1, .i32⟩
  | .hbm, ⟨26, _⟩ => ⟨S200000x3, .f32⟩
  | .hbm, ⟨27, _⟩ => ⟨S200000x3, .f32⟩
  | .hbm, ⟨28, _⟩ => ⟨S1x5000000, .i32⟩
  | .hbm, ⟨29, _⟩ => ⟨S5000000, .i32⟩
  | .hbm, ⟨30, _⟩ => ⟨S_, .f32⟩
  | .hbm, ⟨31, _⟩ => ⟨S200000x6, .f32⟩
  | .hbm, ⟨32, _⟩ => ⟨S5000000x1, .i32⟩
  | .hbm, ⟨33, _⟩ => ⟨S200000x6, .f32⟩
  | .hbm, ⟨34, _⟩ => ⟨S_, .f32⟩
  | .hbm, ⟨35, _⟩ => ⟨S32x6, .f32⟩
  | .hbm, ⟨36, _⟩ => ⟨S200000x1, .i32⟩
  | .hbm, ⟨37, _⟩ => ⟨S32x6, .f32⟩
  | .hbm, ⟨38, _⟩ => ⟨S32x6, .f32⟩
  | .hbm, ⟨39, _⟩ => ⟨S32x1, .f32⟩
  | .hbm, ⟨40, _⟩ => ⟨S32x6, .f32⟩
  | .hbm, ⟨41, _⟩ => ⟨S32x6, .f32⟩
  | .hbm, ⟨42, _⟩ => ⟨S_, .f32⟩
  | .hbm, ⟨43, _⟩ => ⟨S32x6, .f32⟩
  | .hbm, ⟨44, _⟩ => ⟨S200000x1, .i32⟩
  | .hbm, ⟨45, _⟩ => ⟨S32x6, .f32⟩
  | .hbm, ⟨46, _⟩ => ⟨S_, .f32⟩
  | .hbm, ⟨47, _⟩ => ⟨S32x6, .f32⟩
  | .hbm, ⟨48, _⟩ => ⟨S200000x1, .i32⟩
  | .hbm, ⟨49, _⟩ => ⟨S32x6, .f32⟩
  | .local _ .vmem, ⟨0, _⟩ => ⟨S8000x3, .f32⟩
  | .local _ .vmem, ⟨1, _⟩ => ⟨S8000x3, .f32⟩
  | .local _ .vmem, ⟨2, _⟩ => ⟨S8000x3, .f32⟩
  | .local _ .vmem, ⟨3, _⟩ => ⟨S8000x3, .f32⟩
  | .local _ .vmem, ⟨4, _⟩ => ⟨S8000x6, .f32⟩
  | .local _ .vmem, ⟨5, _⟩ => ⟨S8000x6, .f32⟩
  | .local _ .vmem, ⟨6, _⟩ => ⟨S2000x1, .f32⟩
  | .local _ .vmem, ⟨7, _⟩ => ⟨S2000x1, .f32⟩
  | .local _ .vmem, ⟨8, _⟩ => ⟨S2000x5, .f32⟩
  | .local _ .vmem, ⟨9, _⟩ => ⟨S2000x5, .f32⟩
  | .local _ .vmem, ⟨10, _⟩ => ⟨S5x6, .f32⟩
  | .local _ .vmem, ⟨11, _⟩ => ⟨S2000x6, .f32⟩
  | .local _ .vmem, ⟨12, _⟩ => ⟨S2000x6, .f32⟩
  | .local _ .vmem, ⟨13, _⟩ => ⟨S2000x6, .f32⟩
  | .local _ .vmem, ⟨14, _⟩ => ⟨S2000x6, .f32⟩
  | _, _ => ⟨S5000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3_0 : Ref sig .tc := ⟨.hbm, 13, rfl⟩
abbrev main_v3_1 : Ref sig .tc := ⟨.hbm, 14, rfl⟩
abbrev main_v4 : Ref sig .tc := ⟨.hbm, 15, rfl⟩
abbrev main_v5 : Ref sig .tc := ⟨.hbm, 16, rfl⟩
abbrev main_cst_1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_2 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_5 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg3_1 : Ref sig .tc := ⟨.vmem, 12, rfl⟩
abbrev cc1_stg4_0 : Ref sig .tc := ⟨.vmem, 13, rfl⟩
abbrev cc1_stg4_1 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12
abbrev cc1_sem4_0 : DmaSem sig := 13
abbrev cc1_sem4_1 : DmaSem sig := 14

abbrev nD : Nat := 1
abbrev τ : Topo := Topo.v7x

variable {F : FTy → Type} [FloatOps F]

abbrev grid0 : Pipeline.Grid := ⟨1, ![625], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8000x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8000x6 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![100], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x1 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x5 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S5x6 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x6 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S2000x6 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  shapeCasts_S32x1_S32 : S32x1.ShapeCasts S32
  reducesTo_S32_S_d0 : S32.ReducesTo [0] S_
  h_S_ : 0 < S_.numel
  inb_S8000x3_S8000x3_0_0 : ∀ a, (![0, 0] : Fin 2 → Nat) a + S8000x3.size a ≤ S8000x3.size a
  h_S8000x3 : 0 < S8000x3.numel
  inb_S8000x6_S8000x3_0_0 : ∀ a, (![0, 0] : Fin 2 → Nat) a + S8000x3.size a ≤ S8000x6.size a
  slices_S8000x3_o0_0_S8000x1 : S8000x3.Slices ![0, 0] S8000x1
  shapeCasts_S8000x1_S8000 : S8000x1.ShapeCasts S8000
  slices_S8000x3_o0_1_S8000x1 : S8000x3.Slices ![0, 1] S8000x1
  shapeCasts_S8000_S8000x1 : S8000.ShapeCasts S8000x1
  inb_S8000x6_S8000x1_0_3 : ∀ a, (![0, 3] : Fin 2 → Nat) a + S8000x1.size a ≤ S8000x6.size a
  h_S8000x1 : 0 < S8000x1.numel
  slices_S8000x3_o0_2_S8000x1 : S8000x3.Slices ![0, 2] S8000x1
  inb_S8000x6_S8000x1_0_4 : ∀ a, (![0, 4] : Fin 2 → Nat) a + S8000x1.size a ≤ S8000x6.size a
  inb_S8000x6_S8000x1_0_5 : ∀ a, (![0, 5] : Fin 2 → Nat) a + S8000x1.size a ≤ S8000x6.size a
  inb_S2000x5_S2000x5_0_0 : ∀ a, (![0, 0] : Fin 2 → Nat) a + S2000x5.size a ≤ S2000x5.size a
  h_S2000x5 : 0 < S2000x5.numel
  inb_S5x6_S5x6_0_0 : ∀ a, (![0, 0] : Fin 2 → Nat) a + S5x6.size a ≤ S5x6.size a
  h_S5x6 : 0 < S5x6.numel
  slices_S2000x5_o0_0_S2000x1 : S2000x5.Slices ![0, 0] S2000x1
  slices_S5x6_o0_0_S1x6 : S5x6.Slices ![0, 0] S1x6
  broadcasts_S2000x1_S2000x6 : S2000x1.Broadcasts S2000x6
  broadcasts_S1x6_S2000x6 : S1x6.Broadcasts S2000x6
  slices_S2000x5_o0_1_S2000x1 : S2000x5.Slices ![0, 1] S2000x1
  slices_S5x6_o1_0_S1x6 : S5x6.Slices ![1, 0] S1x6
  slices_S2000x5_o0_2_S2000x1 : S2000x5.Slices ![0, 2] S2000x1
  slices_S5x6_o2_0_S1x6 : S5x6.Slices ![2, 0] S1x6
  slices_S2000x5_o0_3_S2000x1 : S2000x5.Slices ![0, 3] S2000x1
  slices_S5x6_o3_0_S1x6 : S5x6.Slices ![3, 0] S1x6
  slices_S2000x5_o0_4_S2000x1 : S2000x5.Slices ![0, 4] S2000x1
  slices_S5x6_o4_0_S1x6 : S5x6.Slices ![4, 0] S1x6
  inb_S2000x6_S2000x6_0_0 : ∀ a, (![0, 0] : Fin 2 → Nat) a + S2000x6.size a ≤ S2000x6.size a
  h_S2000x6 : 0 < S2000x6.numel
  inb_S2000x1_S2000x1_0_0 : ∀ a, (![0, 0] : Fin 2 → Nat) a + S2000x1.size a ≤ S2000x1.size a
  h_S2000x1 : 0 < S2000x1.numel
  inb_S2000x6_S2000x1_0_0 : ∀ a, (![0, 0] : Fin 2 → Nat) a + S2000x1.size a ≤ S2000x6.size a
  inb_S2000x6_S2000x1_0_1 : ∀ a, (![0, 1] : Fin 2 → Nat) a + S2000x1.size a ≤ S2000x6.size a
  inb_S2000x6_S2000x1_0_2 : ∀ a, (![0, 2] : Fin 2 → Nat) a + S2000x1.size a ≤ S2000x6.size a
  inb_S2000x6_S2000x3_0_3 : ∀ a, (![0, 3] : Fin 2 → Nat) a + S2000x3.size a ≤ S2000x6.size a
  h_S2000x3 : 0 < S2000x3.numel
  slices_S2x5000000_S1x5000000_0_0 : S2x5000000.Slices ![0, 0] S1x5000000
  shapeCasts_S1x5000000_S5000000 : S1x5000000.ShapeCasts S5000000
  bcast_S_S200000x3 : S_.BroadcastsInDim S200000x3 (![] : Fin 0 → Fin S200000x3.rank)
  bcast_S5000000_S5000000x1_0 : S5000000.BroadcastsInDim S5000000x1 (![0] : Fin 1 → Fin S5000000x1.rank)
  slices_S2x5000000_S1x5000000_1_0 : S2x5000000.Slices ![1, 0] S1x5000000
  bcast_S_S200000x6 : S_.BroadcastsInDim S200000x6 (![] : Fin 0 → Fin S200000x6.rank)
  bcast_S_S32x6 : S_.BroadcastsInDim S32x6 (![] : Fin 0 → Fin S32x6.rank)
  bcast_S200000_S200000x1_0 : S200000.BroadcastsInDim S200000x1 (![0] : Fin 1 → Fin S200000x1.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  scatter_S200000x3_S5000000x1_S5000000x3_1_0_0_1_wf : ScatterDims.WF S200000x3 S5000000x1 S5000000x3 [1] [0] [0] 1
  scatter_S200000x6_S5000000x1_S5000000x6_1_0_0_1_wf : ScatterDims.WF S200000x6 S5000000x1 S5000000x6 [1] [0] [0] 1
  scatter_S32x6_S200000x1_S200000x6_1_0_0_1_wf : ScatterDims.WF S32x6 S200000x1 S200000x6 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8000x3.size a ≤ S5000000x3.size a
  hwx0_0 : ∀ i : grid0.Coords, EltTy.bits .f32 = 32 ∨ (Rect.block (s := S5000000x3) S8000x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8000x3.size a ≤ S5000000x3.size a
  hwx0_1 : ∀ i : grid0.Coords, EltTy.bits .f32 = 32 ∨ (Rect.block (s := S5000000x3) S8000x3.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8000x6.size a ≤ S5000000x6.size a
  hwx0_2 : ∀ i : grid0.Coords, EltTy.bits .f32 = 32 ∨ (Rect.block (s := S5000000x6) S8000x6.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x1.size a ≤ S200000x1.size a
  hwx1_0 : ∀ i : grid1.Coords, EltTy.bits .f32 = 32 ∨ (Rect.block (s := S200000x1) S2000x1.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x5.size a ≤ S200000x5.size a
  hwx1_1 : ∀ i : grid1.Coords, EltTy.bits .f32 = 32 ∨ (Rect.block (s := S200000x5) S2000x5.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S5x6.size a ≤ S5x6.size a
  hwx1_2 : ∀ i : grid1.Coords, EltTy.bits .f32 = 32 ∨ (Rect.block (s := S5x6) S5x6.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x6.size a ≤ S200000x6.size a
  hwx1_3 : ∀ i : grid1.Coords, EltTy.bits .f32 = 32 ∨ (Rect.block (s := S200000x6) S2000x6.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x6.size a ≤ S200000x6.size a
  hwx1_4 : ∀ i : grid1.Coords, EltTy.bits .f32 = 32 ∨ (Rect.block (s := S200000x6) S2000x6.size (cc1_transform_4 i) (hinb1_4 i)).WholeWords (EltTy.packing .f32)

variable [Facts₀]

def scatter_S200000x3_S5000000x1_S5000000x3_1_0_0_1 : ScatterDims S200000x3 S5000000x1 S5000000x3 where
  updateWindowDims := [1]
  insertedWindowDims := [0]
  scatterDimsToOperandDims := [0]
  indexVectorDim := 1
  wf := scatter_S200000x3_S5000000x1_S5000000x3_1_0_0_1_wf
def scatter_S200000x6_S5000000x1_S5000000x6_1_0_0_1 : ScatterDims S200000x6 S5000000x1 S5000000x6 where
  updateWindowDims := [1]
  insertedWindowDims := [0]
  scatterDimsToOperandDims := [0]
  indexVectorDim := 1
  wf := scatter_S200000x6_S5000000x1_S5000000x6_1_0_0_1_wf
def scatter_S32x6_S200000x1_S200000x6_1_0_0_1 : ScatterDims S32x6 S200000x1 S200000x6 where
  updateWindowDims := [1]
  insertedWindowDims := [0]
  scatterDimsToOperandDims := [0]
  indexVectorDim := 1
  wf := scatter_S32x6_S200000x1_S200000x6_1_0_0_1_wf

abbrev win0_0 : Pipeline.Window sig grid0 :=
  Pipeline.Window.ofSpec (Memref.whole main_arg0) S8000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S8000x3.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8000x6.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S2000x1.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg3) S2000x5.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_cst) S5x6.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3_0) S2000x6.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v3_1) S2000x6.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S5000000x3 : Shape := ⟨2, ![5000000, 3]⟩
abbrev S200000x1 : Shape := ⟨2, ![200000, 1]⟩
abbrev S200000x5 : Shape := ⟨2, ![200000, 5]⟩
abbrev S32 : Shape := ⟨1, ![32]⟩
abbrev S32x1 : Shape := ⟨2, ![32, 1]⟩
abbrev S2x5000000 : Shape := ⟨2, ![2, 5000000]⟩
abbrev S200000 : Shape := ⟨1, ![200000]⟩
abbrev S6x5 : Shape := ⟨2, ![6, 5]⟩
abbrev S_ : Shape := ⟨0, ![]⟩
abbrev S1x5000000 : Shape := ⟨2, ![1, 5000000]⟩
abbrev S5000000 : Shape := ⟨1, ![5000000]⟩
abbrev S200000x3 : Shape := ⟨2, ![200000, 3]⟩
abbrev S5000000x1 : Shape := ⟨2, ![5000000, 1]⟩
abbrev S5000000x6 : Shape := ⟨2, ![5000000, 6]⟩
abbrev S200000x6 : Shape := ⟨2, ![200000, 6]⟩
abbrev S32x6 : Shape := ⟨2, ![32, 6]⟩
abbrev S5x6 : Shape := ⟨2, ![5, 6]⟩

abbrev nBuf : Space → Nat
  | .hbm => 72
  | .vmem => 0
  | .smem => 0
  | _ => 0

abbrev bufTy : (tb : Table) → Fin (tcTables nBuf tb) → BufTy
  | .hbm, ⟨0, _⟩ => ⟨S5000000x3, .f32⟩
  | .hbm, ⟨1, _⟩ => ⟨S5000000x3, .f32⟩
  | .hbm, ⟨2, _⟩ => ⟨S200000x1, .f32⟩
  | .hbm, ⟨3, _⟩ => ⟨S200000x5, .f32⟩
  | .hbm, ⟨4, _⟩ => ⟨S32, .f32⟩
  | .hbm, ⟨5, _⟩ => ⟨S32x1, .f32⟩
  | .hbm, ⟨6, _⟩ => ⟨S2x5000000, .i32⟩
  | .hbm, ⟨7, _⟩ => ⟨S200000, .i32⟩
  | .hbm, ⟨8, _⟩ => ⟨S6x5, .f32⟩
  | .hbm, ⟨9, _⟩ => ⟨S32, .f32⟩
  | .hbm, ⟨10, _⟩ => ⟨S_, .f32⟩
  | .hbm, ⟨11, _⟩ => ⟨S_, .f32⟩
  | .hbm, ⟨12, _⟩ => ⟨S1x5000000, .i32⟩
  | .hbm, ⟨13, _⟩ => ⟨S5000000, .i32⟩
  | .hbm, ⟨14, _⟩ => ⟨S_, .f32⟩
  | .hbm, ⟨15, _⟩ => ⟨S200000x3, .f32⟩
  | .hbm, ⟨16, _⟩ => ⟨S5000000x1, .i32⟩
  | .hbm, ⟨17, _⟩ => ⟨S200000x3, .f32⟩
  | .hbm, ⟨18, _⟩ => ⟨S1x5000000, .i32⟩
  | .hbm, ⟨19, _⟩ => ⟨S5000000, .i32⟩
  | .hbm, ⟨20, _⟩ => ⟨S_, .f32⟩
  | .hbm, ⟨21, _⟩ => ⟨S200000x3, .f32⟩
  | .hbm, ⟨22, _⟩ => ⟨S5000000x1, .i32⟩
  | .hbm, ⟨23, _⟩ => ⟨S200000x3, .f32⟩
  | .hbm, ⟨24, _⟩ => ⟨S200000x3, .f32⟩
  | .hbm, ⟨25, _⟩ => ⟨S5000000x3, .f32⟩
  | .hbm, ⟨26, _⟩ => ⟨S5000000x1, .f32⟩
  | .hbm, ⟨27, _⟩ => ⟨S5000000, .f32⟩
  | .hbm, ⟨28, _⟩ => ⟨S5000000x1, .f32⟩
  | .hbm, ⟨29, _⟩ => ⟨S5000000, .f32⟩
  | .hbm, ⟨30, _⟩ => ⟨S5000000, .f32⟩
  | .hbm, ⟨31, _⟩ => ⟨S5000000x1, .f32⟩
  | .hbm, ⟨32, _⟩ => ⟨S5000000x1, .f32⟩
  | .hbm, ⟨33, _⟩ => ⟨S5000000, .f32⟩
  | .hbm, ⟨34, _⟩ => ⟨S5000000x1, .f32⟩
  | .hbm, ⟨35, _⟩ => ⟨S5000000, .f32⟩
  | .hbm, ⟨36, _⟩ => ⟨S5000000, .f32⟩
  | .hbm, ⟨37, _⟩ => ⟨S5000000x1, .f32⟩
  | .hbm, ⟨38, _⟩ => ⟨S5000000x1, .f32⟩
  | .hbm, ⟨39, _⟩ => ⟨S5000000, .f32⟩
  | .hbm, ⟨40, _⟩ => ⟨S5000000x1, .f32⟩
  | .hbm, ⟨41, _⟩ => ⟨S5000000, .f32⟩
  | .hbm, ⟨42, _⟩ => ⟨S5000000, .f32⟩
  | .hbm, ⟨43, _⟩ => ⟨S5000000x1, .f32⟩
  | .hbm, ⟨44, _⟩ => ⟨S5000000x6, .f32⟩
  | .hbm, ⟨45, _⟩ => ⟨S1x5000000, .i32⟩
  | .hbm, ⟨46, _⟩ => ⟨S5000000, .i32⟩
  | .hbm, ⟨47, _⟩ => ⟨S_, .f32⟩
  | .hbm, ⟨48, _⟩ => ⟨S200000x6, .f32⟩
  | .hbm, ⟨49, _⟩ => ⟨S5000000x1, .i32⟩
  | .hbm, ⟨50, _⟩ => ⟨S200000x6, .f32⟩
  | .hbm, ⟨51, _⟩ => ⟨S_, .f32⟩
  | .hbm, ⟨52, _⟩ => ⟨S32x6, .f32⟩
  | .hbm, ⟨53, _⟩ => ⟨S200000x1, .i32⟩
  | .hbm, ⟨54, _⟩ => ⟨S32x6, .f32⟩
  | .hbm, ⟨55, _⟩ => ⟨S32x6, .f32⟩
  | .hbm, ⟨56, _⟩ => ⟨S32x1, .f32⟩
  | .hbm, ⟨57, _⟩ => ⟨S32x6, .f32⟩
  | .hbm, ⟨58, _⟩ => ⟨S32x6, .f32⟩
  | .hbm, ⟨59, _⟩ => ⟨S5x6, .f32⟩
  | .hbm, ⟨60, _⟩ => ⟨S200000x6, .f32⟩
  | .hbm, ⟨61, _⟩ => ⟨S_, .f32⟩
  | .hbm, ⟨62, _⟩ => ⟨S200000x3, .f32⟩
  | .hbm, ⟨63, _⟩ => ⟨S200000x6, .f32⟩
  | .hbm, ⟨64, _⟩ => ⟨S_, .f32⟩
  | .hbm, ⟨65, _⟩ => ⟨S32x6, .f32⟩
  | .hbm, ⟨66, _⟩ => ⟨S200000x1, .i32⟩
  | .hbm, ⟨67, _⟩ => ⟨S32x6, .f32⟩
  | .hbm, ⟨68, _⟩ => ⟨S_, .f32⟩
  | .hbm, ⟨69, _⟩ => ⟨S32x6, .f32⟩
  | .hbm, ⟨70, _⟩ => ⟨S200000x1, .i32⟩
  | .hbm, ⟨71, _⟩ => ⟨S32x6, .f32⟩
  | _, _ => ⟨S5000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst_1 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_3 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_cst_4 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_cst_5 : Ref sig .tc := ⟨.hbm, 61, rfl⟩
abbrev main_v47 : Ref sig .tc := ⟨.hbm, 62, rfl⟩
abbrev main_v48 : Ref sig .tc := ⟨.hbm, 63, rfl⟩
abbrev main_cst_6 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_7 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩

abbrev nD : Nat := 1
abbrev τ : Topo := Topo.v7x

variable {F : FTy → Type} [FloatOps F]

class Facts₀ : Prop where
  shapeCasts_S32x1_S32 : S32x1.ShapeCasts S32
  reducesTo_S32_S_d0 : S32.ReducesTo [0] S_
  h_S_ : 0 < S_.numel
  slices_S2x5000000_S1x5000000_0_0 : S2x5000000.Slices ![0, 0] S1x5000000
  shapeCasts_S1x5000000_S5000000 : S1x5000000.ShapeCasts S5000000
  bcast_S_S200000x3 : S_.BroadcastsInDim S200000x3 (![] : Fin 0 → Fin S200000x3.rank)
  bcast_S5000000_S5000000x1_0 : S5000000.BroadcastsInDim S5000000x1 (![0] : Fin 1 → Fin S5000000x1.rank)
  slices_S2x5000000_S1x5000000_1_0 : S2x5000000.Slices ![1, 0] S1x5000000
  slices_S5000000x3_S5000000x1_0_0 : S5000000x3.Slices ![0, 0] S5000000x1
  shapeCasts_S5000000x1_S5000000 : S5000000x1.ShapeCasts S5000000
  slices_S5000000x3_S5000000x1_0_1 : S5000000x3.Slices ![0, 1] S5000000x1
  slices_S5000000x3_S5000000x1_0_2 : S5000000x3.Slices ![0, 2] S5000000x1
  concatenates_S5000000x3_S5000000x1_S5000000x1_S5000000x1_S5000000x6_d1 : Shape.Concatenates [S5000000x3, S5000000x1, S5000000x1, S5000000x1] S5000000x6 1
  bcast_S_S200000x6 : S_.BroadcastsInDim S200000x6 (![] : Fin 0 → Fin S200000x6.rank)
  bcast_S_S32x6 : S_.BroadcastsInDim S32x6 (![] : Fin 0 → Fin S32x6.rank)
  bcast_S200000_S200000x1_0 : S200000.BroadcastsInDim S200000x1 (![0] : Fin 1 → Fin S200000x1.rank)
  bcast_S32_S32x1_0 : S32.BroadcastsInDim S32x1 (![0] : Fin 1 → Fin S32x1.rank)
  bcast_S32x1_S32x6_0_1 : S32x1.BroadcastsInDim S32x6 (![0, 1] : Fin 2 → Fin S32x6.rank)
  transposes_S6x5_S5x6_1_0 : S6x5.Transposes [1, 0] S5x6
  concatenates_S200000x1_S200000x1_S200000x1_S200000x3_S200000x6_d1 : Shape.Concatenates [S200000x1, S200000x1, S200000x1, S200000x3] S200000x6 1
  scatter_S200000x3_S5000000x1_S5000000x3_1_0_0_1_wf : ScatterDims.WF S200000x3 S5000000x1 S5000000x3 [1] [0] [0] 1
  scatter_S200000x6_S5000000x1_S5000000x6_1_0_0_1_wf : ScatterDims.WF S200000x6 S5000000x1 S5000000x6 [1] [0] [0] 1
  scatter_S32x6_S200000x1_S200000x6_1_0_0_1_wf : ScatterDims.WF S32x6 S200000x1 S200000x6 [1] [0] [0] 1
  dot_S200000x5_S5x6_S200000x6_1_0_0_1_n_n_wf : DotDims.WF S200000x5 S5x6 S200000x6 [1] [0] [0] [1] [] []

variable [Facts₀]

def scatter_S200000x3_S5000000x1_S5000000x3_1_0_0_1 : ScatterDims S200000x3 S5000000x1 S5000000x3 where
  updateWindowDims := [1]
  insertedWindowDims := [0]
  scatterDimsToOperandDims := [0]
  indexVectorDim := 1
  wf := scatter_S200000x3_S5000000x1_S5000000x3_1_0_0_1_wf
def scatter_S200000x6_S5000000x1_S5000000x6_1_0_0_1 : ScatterDims S200000x6 S5000000x1 S5000000x6 where
  updateWindowDims := [1]
  insertedWindowDims := [0]
  scatterDimsToOperandDims := [0]
  indexVectorDim := 1
  wf := scatter_S200000x6_S5000000x1_S5000000x6_1_0_0_1_wf
def scatter_S32x6_S200000x1_S200000x6_1_0_0_1 : ScatterDims S32x6 S200000x1 S200000x6 where
  updateWindowDims := [1]
  insertedWindowDims := [0]
  scatterDimsToOperandDims := [0]
  indexVectorDim := 1
  wf := scatter_S32x6_S200000x1_S200000x6_1_0_0_1_wf
def dot_S200000x5_S5x6_S200000x6_1_0_0_1_n_n : DotDims S200000x5 S5x6 S200000x6 where
  lhsContracting := [1]
  rhsContracting := [0]
  lhsNonContracting := [0]
  rhsNonContracting := [1]
  lhsBatch := []
  rhsBatch := []
  wf := dot_S200000x5_S5x6_S200000x6_1_0_0_1_n_n_wf

class Facts : Prop extends Facts₀ where

variable [Facts]
-- ==== Proof.KBlock0.lean ====
/-
  What one run of the virial kernel's body leaves in its output block, as a function of the two input blocks.
  The body stores four pieces into the 8000 x 6 block: columns 0-2 the elementwise product of the two 8000 x 3 input
  blocks, and columns 3, 4, 5 the products of column 0 with column 1, column 1 with column 2, column 2 with column 0.
  The four pieces tile the block, so the block reads back as one function of the row and the column.
-/
import proofs.«168080_j18382460027059_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.Tactic
open Idealize.ShloMosaic.ValueIdx

namespace Cert.KernelIdeal.KV

open Cert.KernelIdeal Cert.KernelIdeal.Gen

theorem hz : (![0, 0] : Fin 2 → Nat) = fun _ => 0 := funext fun a => by fin_cases a <;> rfl

/-- One entry of the block the body leaves: row `r`, column `j`. -/
def vblkAt (x0 x1 : FVec Ideal S8000x3 .f32) (r : Fin 8000) (j : Fin 6) : EReal :=
  if h : j.val < 3 then x0 (ix2 r (⟨j.val, h⟩ : Fin 3)) * x1 (ix2 r (⟨j.val, h⟩ : Fin 3))
  else if j.val = 3 then x0 (ix2 r (0 : Fin 3)) * x1 (ix2 r (1 : Fin 3))
  else if j.val = 4 then x0 (ix2 r (1 : Fin 3)) * x1 (ix2 r (2 : Fin 3))
  else x0 (ix2 r (2 : Fin 3)) * x1 (ix2 r (0 : Fin 3))

/-- The block the body leaves. -/
def vblk (x0 x1 : FVec Ideal S8000x3 .f32) : FVec Ideal S8000x6 .f32 := fun y => vblkAt x0 x1 (y 0) (y 1)

/-- Column `p` of an 8000 x 3 block, flattened, at row `r`. -/
theorem col_apply (x : FVec Ideal S8000x3 .f32) (o : Fin 2 → Nat) (p : Fin 3) (ho : o = ![0, p.val])
    (h : S8000x3.Slices o S8000x1) (h' : S8000x1.ShapeCasts S8000) (r : Fin 8000) :
    shapeCast S8000 (extractStridedSlice S8000x1 o x h) h' (ix1 r) = x (ix2 r p) := by
  subst ho
  refine (shapeCast_apply _ h' (ix1 r) (ix2 r (0 : Fin 1)) ?_).trans ?_
  · rw [Shape.rowMajor_val_two, Shape.rowMajor_val_one]; show r.val * 1 + 0 = r.val; omega
  · refine extractStridedSlice_apply _ x h _ (ix2 r p) fun a => ?_
    match a with
    | ⟨0, _⟩ => show r.val = 0 + r.val; omega
    | ⟨1, _⟩ => show p.val = p.val + 0; omega

/-- A cross column: the product of column `p` of the first block and column `q` of the second, as an 8000 x 1 piece. -/
theorem cross_apply (x0 x1 : FVec Ideal S8000x3 .f32) (o o' : Fin 2 → Nat) (p q : Fin 3) (ho : o = ![0, p.val]) (ho' : o' = ![0, q.val])
    (h : S8000x3.Slices o S8000x1) (h' : S8000x3.Slices o' S8000x1) (hc : S8000x1.ShapeCasts S8000) (hc' : S8000.ShapeCasts S8000x1)
    (r : Fin 8000) (s : Fin 1) :
    shapeCast S8000x1 (mulf (shapeCast S8000 (extractStridedSlice S8000x1 o x0 h) hc)
      (shapeCast S8000 (extractStridedSlice S8000x1 o' x1 h') hc)) hc' (ix2 r s) = x0 (ix2 r p) * x1 (ix2 r q) := by
  have h1 : s.val < 1 := s.isLt
  refine (shapeCast_apply _ hc' (ix2 r s) (ix1 r) ?_).trans ?_
  · rw [Shape.rowMajor_val_two, Shape.rowMajor_val_one]; show r.val = r.val * 1 + s.val; omega
  · rw [mulf_apply, col_apply x0 o p ho, col_apply x1 o' q ho']

theorem pay1_apply (x0 x1 : FVec Ideal S8000x3 .f32) (x : S8000x3.Idx) : k0_pay1 (F := Ideal) x0 x1 x = x0 x * x1 x := rfl
theorem pay2_apply (x0 x1 : FVec Ideal S8000x3 .f32) (r : Fin 8000) (s : Fin 1) :
    k0_pay2 (F := Ideal) x0 x1 (ix2 r s) = x0 (ix2 r (0 : Fin 3)) * x1 (ix2 r (1 : Fin 3)) := by
  unfold k0_pay2; exact cross_apply x0 x1 _ _ 0 1 rfl rfl _ _ _ _ r s
theorem pay3_apply (x0 x1 : FVec Ideal S8000x3 .f32) (r : Fin 8000) (s : Fin 1) :
    k0_pay3 (F := Ideal) x0 x1 (ix2 r s) = x0 (ix2 r (1 : Fin 3)) * x1 (ix2 r (2 : Fin 3)) := by
  unfold k0_pay3; exact cross_apply x0 x1 _ _ 1 2 rfl rfl _ _ _ _ r s
theorem pay4_apply (x0 x1 : FVec Ideal S8000x3 .f32) (r : Fin 8000) (s : Fin 1) :
    k0_pay4 (F := Ideal) x0 x1 (ix2 r s) = x0 (ix2 r (2 : Fin 3)) * x1 (ix2 r (0 : Fin 3)) := by
  unfold k0_pay4; exact cross_apply x0 x1 _ _ 2 0 rfl rfl _ _ _ _ r s

/-- The place of an entry of a one-column piece stored at column `q` of the block. -/
theorem emb_col (q : Fin 6) (o : Fin 2 → Nat) (ho : o = ![0, q.val]) (inb : ∀ a, o a + S8000x1.size a ≤ S8000x6.size a) (r : Fin 8000) (s : Fin 1) :
    (Rect.unit (s := S8000x6) o S8000x1.size inb).emb (ix2 r s) = ix2 r q := by
  subst ho
  have h1 : s.val < 1 := s.isLt
  funext a
  match a with
  | ⟨0, _⟩ => exact Fin.ext (by show 0 + 1 * r.val = r.val; omega)
  | ⟨1, _⟩ => exact Fin.ext (by show q.val + 1 * s.val = q.val; omega)

/-- The place of an entry of the three-column piece stored at column 0. -/
theorem emb_diag (inb : ∀ a, (![0, 0] : Fin 2 → Nat) a + S8000x3.size a ≤ S8000x6.size a) (r : Fin 8000) (s : Fin 3) :
    (Rect.unit (s := S8000x6) ![0, 0] S8000x3.size inb).emb (ix2 r s)
      = ix2 r (⟨s.val, Nat.lt_of_lt_of_le s.isLt (by decide)⟩ : Fin 6) := by
  funext a
  match a with
  | ⟨0, _⟩ => exact Fin.ext (by show 0 + 1 * r.val = r.val; omega)
  | ⟨1, _⟩ => exact Fin.ext (by show 0 + 1 * s.val = s.val; omega)

/-- A cross piece stored at column `q` agrees with the block function there. -/
theorem piece_col (x0 x1 : FVec Ideal S8000x3 .f32) (w : FVec Ideal S8000x1 .f32) (q : Fin 6) (o : Fin 2 → Nat) (ho : o = ![0, q.val])
    (inb : ∀ a, o a + S8000x1.size a ≤ S8000x6.size a)
    (hw : ∀ (r : Fin 8000) (s : Fin 1), w (ix2 r s) = vblkAt x0 x1 r q) :
    ∀ x : S8000x1.Idx, w x = vblk x0 x1 ((Rect.unit (s := S8000x6) o S8000x1.size inb).emb x) := by
  intro x
  obtain ⟨r, s, rfl⟩ : ∃ (r : Fin 8000) (s : Fin 1), x = ix2 r s := ⟨x 0, x 1, eq_ix2 x⟩
  rw [emb_col q o ho inb r s, hw r s]; rfl

/-- The diagonal piece agrees with the block function on columns 0-2. -/
theorem piece_diag (x0 x1 : FVec Ideal S8000x3 .f32) (inb : ∀ a, (![0, 0] : Fin 2 → Nat) a + S8000x3.size a ≤ S8000x6.size a) :
    ∀ x : S8000x3.Idx, k0_pay1 (F := Ideal) x0 x1 x = vblk x0 x1 ((Rect.unit (s := S8000x6) ![0, 0] S8000x3.size inb).emb x) := by
  intro x
  obtain ⟨r, s, rfl⟩ : ∃ (r : Fin 8000) (s : Fin 3), x = ix2 r s := ⟨x 0, x 1, eq_ix2 x⟩
  rw [emb_diag inb r s, pay1_apply]
  show _ = vblkAt x0 x1 r ⟨s.val, _⟩
  unfold vblkAt
  rw [dif_pos (show ((⟨s.val, Nat.lt_of_lt_of_le s.isLt (by decide)⟩ : Fin 6)).val < 3 from s.isLt)]

/-- The body's output block is `vblk` of its input blocks. -/
theorem out0_eq (c : Dev nD) (i : grid0.Coords) (a1 : Memref sig .tc .vmem S8000x3 .f32) (h1 : a1.IsWhole)
    (a2 : Memref sig .tc .vmem S8000x3 .f32) (h2 : a2.IsWhole) (a3 : Memref sig .tc .vmem S8000x6 .f32) (h3 : a3.IsWhole)
    (x0 x1 : Vec Ideal S8000x3 .f32) :
    out0_A_2 (F := Ideal) c i a1 h1 a2 h2 a3 h3 x0 x1 = vblk x0 x1 := by
  unfold out0_A_2
  rw [View.read_writes_junk_eq_canon]
  funext y
  refine View.canon_apply_of_pieces (vblk x0 x1) _ ?_ y (cover0_A_2 c i a1 h1 a2 h2 a3 h3 x0 x1 y)
  intro p hp
  unfold kernelRun0_A at hp
  dsimp only at hp
  simp only [View.readAt_eq_ld, h1.read_unread, h2.read_unread, View.ld_unit_zero (S := S8000x3) hz,
    List.mem_cons, List.not_mem_nil, or_false] at hp
  rcases hp with rfl | rfl | rfl | rfl
  · exact piece_col x0 x1 _ 5 _ rfl inb_S8000x6_S8000x1_0_5 fun r s => (pay4_apply x0 x1 r s).trans rfl
  · exact piece_col x0 x1 _ 4 _ rfl inb_S8000x6_S8000x1_0_4 fun r s => (pay3_apply x0 x1 r s).trans rfl
  · exact piece_col x0 x1 _ 3 _ rfl inb_S8000x6_S8000x1_0_3 fun r s => (pay2_apply x0 x1 r s).trans rfl
  · exact piece_diag x0 x1 inb_S8000x6_S8000x3_0_0

end Cert.KernelIdeal.KV

end
-- ==== Proof.Spec.lean ====
/-
  The three per-row arrays on which the kernel's program and the reference differ in text, each written once as a
  function of the argument arrays, index by index, over the extended reals.  Everything after them (the segment sums
  into atoms and batches, the negation and the division by the volume) is the same chain of host operations in both
  programs and is never opened.

  * `virial r f` : row `e` of the per-edge virial holds the three diagonal products `r e j * f e j` (j = 0, 1, 2)
    followed by the three cyclic off-diagonal products `r e 0 * f e 1`, `r e 1 * f e 2`, `r e 2 * f e 0`.
  * `andev a K`  : row `n` holds the product of row `n` of `a` (five entries) with the 5 x 6 matrix `K`.
  * `dev iso`    : row `n` holds `iso n` three times and then three zeros.
-/
import Idealize.ShloMosaic.PureOps.Ideal
import Idealize.ShloMosaic.Lib.ValueIdx

noncomputable section

open scoped BigOperators

namespace Cert.Spec

open Idealize.ShloMosaic Idealize.ShloMosaic.ValueIdx

/-- edges x 3 -/
abbrev SE3 : Shape := ⟨2, ![5000000, 3]⟩
/-- edges x 6 -/
abbrev SE6 : Shape := ⟨2, ![5000000, 6]⟩
/-- atoms x 1 -/
abbrev SA1 : Shape := ⟨2, ![200000, 1]⟩
/-- atoms x 5 -/
abbrev SA5 : Shape := ⟨2, ![200000, 5]⟩
/-- atoms x 6 -/
abbrev SA6 : Shape := ⟨2, ![200000, 6]⟩
/-- the 5 x 6 coefficient matrix -/
abbrev SK : Shape := ⟨2, ![5, 6]⟩

/-- One row of the per-edge virial from the row's coordinates: columns 0-2 the diagonal products, columns 3-5 the
    cyclic off-diagonal products. -/
def virialAt (r f : FVec Ideal SE3 .f32) (e : Fin 5000000) (j : Fin 6) : EReal :=
  if h : j.val < 3 then r (ix2 e (⟨j.val, h⟩ : Fin 3)) * f (ix2 e (⟨j.val, h⟩ : Fin 3))
  else if j.val = 3 then r (ix2 e (0 : Fin 3)) * f (ix2 e (1 : Fin 3))
  else if j.val = 4 then r (ix2 e (1 : Fin 3)) * f (ix2 e (2 : Fin 3))
  else r (ix2 e (2 : Fin 3)) * f (ix2 e (0 : Fin 3))

/-- The per-edge virial as one array. -/
def virial (r f : FVec Ideal SE3 .f32) : FVec Ideal SE6 .f32 := fun i => virialAt r f (i 0) (i 1)

/-- Row `n` of `a` times the matrix `K`: the sum over the five shared coordinates. -/
def andev (a : FVec Ideal SA5 .f32) (K : FVec Ideal SK .f32) : FVec Ideal SA6 .f32 := fun i =>
  ∑ k : Fin 5, a (ix2 (i 0 : Fin 200000) k) * K (ix2 k (i 1 : Fin 6))

/-- `iso n` in columns 0-2, zero in columns 3-5. -/
def dev (iso : FVec Ideal SA1 .f32) : FVec Ideal SA6 .f32 := fun i =>
  if (i 1).val < 3 then iso (ix2 (i 0 : Fin 200000) (0 : Fin 1)) else Ideal.ofBits .f32 0x00000000#32

theorem virial_ix (r f : FVec Ideal SE3 .f32) (e : Fin 5000000) (j : Fin 6) :
    virial r f (ix2 e j) = virialAt r f e j := rfl

theorem andev_ix (a : FVec Ideal SA5 .f32) (K : FVec Ideal SK .f32) (n : Fin 200000) (j : Fin 6) :
    andev a K (ix2 n j) = ∑ k : Fin 5, a (ix2 n k) * K (ix2 k j) := rfl

theorem dev_ix (iso : FVec Ideal SA1 .f32) (n : Fin 200000) (j : Fin 6) :
    dev iso (ix2 n j) = if j.val < 3 then iso (ix2 n (0 : Fin 1)) else Ideal.ofBits .f32 0x00000000#32 := rfl

end Cert.Spec

end
-- ==== Proof.KArrays0.lean ====
/-
  The first launch's result array.  The launch runs the virial body at 625 grid points; point `t` reads rows
  8000 t … 8000 t + 7999 of the two edges x 3 arrays and writes back rows 8000 t … 8000 t + 7999 of the edges x 6
  array.  The blocks tile the array, and each block is the block-level function of the input blocks, which is the
  whole-array function `Cert.Spec.virial` read at the block's rows.  So the array ends holding `Cert.Spec.virial` of
  the two arrays as the launch finds them.
-/
import proofs.«168080_j18382460027059_2_alg».proof.Proof.KBlock0
import proofs.«168080_j18382460027059_2_alg».proof.Proof.Spec

set_option maxRecDepth 16384

noncomputable section

open Idealize.ShloMosaic Idealize.ShloMosaic.TcCoe Idealize.SL.Sem Idealize.ShloMosaic.Tactic
open Idealize.ShloMosaic.ValueIdx
open Idealize.ShloMosaic.Pipeline (Dat)

namespace Cert.KernelIdeal.KV

open Cert.KernelIdeal Cert.KernelIdeal.Gen

variable (V : (c : Dev nD) → (b : Ref sig .tc) → Buf (Elt Ideal) ((c : Thread nD τ).loc b))

/-- At point `t` every window's block index is `(t, 0)`. -/
theorem idx0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- Row `r` of point `t`'s blocks is row `8000 t + r` of the arrays. -/
def erow (t : Fin cfg0.N) (r : Fin 8000) : Fin 5000000 :=
  ⟨t.val * 8000 + r.val, by have := t.isLt; have hN : cfg0.N = 625 := N_0; have := r.isLt; omega⟩

/-- The block-level function over blocks that are rows of two arrays is the array-level function at those rows. -/
theorem vblkAt_eq (X0 X1 : FVec Ideal S8000x3 .f32) (A0 A1 : FVec Ideal Cert.Spec.SE3 .f32) (E : Fin 8000 → Fin 5000000)
    (h0 : ∀ (r : Fin 8000) (p : Fin 3), X0 (ix2 r p) = A0 (ix2 (E r) p))
    (h1 : ∀ (r : Fin 8000) (p : Fin 3), X1 (ix2 r p) = A1 (ix2 (E r) p)) (r : Fin 8000) (q : Fin 6) :
    vblkAt X0 X1 r q = Cert.Spec.virialAt A0 A1 (E r) q := by
  unfold vblkAt Cert.Spec.virialAt
  simp only [h0, h1]

theorem iblk0_0 (c : Dev nD) (t : Fin cfg0.N) (r : Fin 8000) (p : Fin 3) :
    (iblk0 V c 0 t : FVec Ideal S8000x3 .f32) (ix2 r p) = (V c main_arg0 : FVec Ideal Cert.Spec.SE3 .f32) (ix2 (erow t r) p) := by
  obtain ⟨e0, e1, -⟩ := idx0 t
  show V c main_arg0 (((cfg0.win 0).blk t).view.emb (ix2 r p)) = V c main_arg0 (ix2 (erow t r) p)
  refine congrArg (V c main_arg0) (funext fun a => Fin.ext ?_)
  match a with
  | ⟨0, _⟩ => show win0_0.index t (0 : Fin 2) * 8000 + 1 * r.val = t.val * 8000 + r.val; rw [e0]; omega
  | ⟨1, _⟩ => show win0_0.index t (1 : Fin 2) * 3 + 1 * p.val = p.val; rw [e1]; omega

theorem iblk0_1 (c : Dev nD) (t : Fin cfg0.N) (r : Fin 8000) (p : Fin 3) :
    (iblk0 V c 1 t : FVec Ideal S8000x3 .f32) (ix2 r p) = (V c main_arg1 : FVec Ideal Cert.Spec.SE3 .f32) (ix2 (erow t r) p) := by
  obtain ⟨-, -, e0, e1, -⟩ := idx0 t
  show V c main_arg1 (((cfg0.win 1).blk t).view.emb (ix2 r p)) = V c main_arg1 (ix2 (erow t r) p)
  refine congrArg (V c main_arg1) (funext fun a => Fin.ext ?_)
  match a with
  | ⟨0, _⟩ => show win0_1.index t (0 : Fin 2) * 8000 + 1 * r.val = t.val * 8000 + r.val; rw [e0]; omega
  | ⟨1, _⟩ => show win0_1.index t (1 : Fin 2) * 3 + 1 * p.val = p.val; rw [e1]; omega

/-- Entry (r, q) of point `t`'s output block sits at row `8000 t + r`, column `q` of the array. -/
theorem emb0_2 (t : Fin cfg0.N) (r : Fin 8000) (q : Fin 6) :
    ((cfg0.win 2).blk t).view.emb (ix2 r q) = (ix2 (erow t r) q : S5000000x6.Idx) := by
  obtain ⟨-, -, -, -, e0, e1⟩ := idx0 t
  funext a
  match a with
  | ⟨0, _⟩ => exact Fin.ext (by show win0_2.index t (0 : Fin 2) * 8000 + 1 * r.val = t.val * 8000 + r.val; rw [e0]; omega)
  | ⟨1, _⟩ => exact Fin.ext (by show win0_2.index t (1 : Fin 2) * 6 + 1 * q.val = q.val; rw [e1]; omega)

/-- What point `t` writes back is block `t` of the virial of the arrays as the launch finds them. -/
theorem flushed0 (c : Dev nD) (t : Fin cfg0.N) :
    (dat0 V c).flushed 2 t = ((cfg0.win 2).blk t).view.read (Elt Ideal) (Cert.Spec.virial (V c main_arg0) (V c main_arg1)) := by
  show (cfg0.win 2).cut (grid0.coords t) ((dat0 V c).after 2 t) = _
  rw [after0_2]
  unfold outsAt0
  rw [out0_eq]
  funext j
  obtain ⟨r, q, rfl⟩ : ∃ (r : Fin 8000) (q : Fin 6), j = ix2 r q := ⟨j 0, j 1, eq_ix2 j⟩
  show vblkAt (iblk0 V c 0 t) (iblk0 V c 1 t) r q
    = Cert.Spec.virial (V c main_arg0) (V c main_arg1) (((cfg0.win 2).blk t).view.emb (ix2 r q))
  rw [emb0_2 t r q, Cert.Spec.virial_ix]
  exact vblkAt_eq _ _ _ _ (erow t) (iblk0_0 V c t) (iblk0_1 V c t) r q

/-- An index of the array is in point `t`'s block iff each coordinate is in the block's range. -/
theorem mem_blk0 (t : Fin cfg0.N) (i : S5000000x6.Idx) :
    i ∈ ((cfg0.win 2).blk t).view.set ↔ ∀ a : Fin 2, win0_2.index t a * S8000x6.size a ≤ (i a).val ∧ (i a).val < win0_2.index t a * S8000x6.size a + S8000x6.size a := by
  show i ∈ ((View.whole main_v2).slice (win0_2.rect t)).set ↔ _
  rw [View.set_slice_whole, Rect.mem_set_unit]
  exact Iff.rfl

/-- Row `i` lies in the block of point `i / 8000`. -/
theorem cover0 (i : S5000000x6.Idx) : ∃ t : Fin cfg0.N, (cfg0.win 2).flush t = true ∧ i ∈ ((cfg0.win 2).blk t).view.set := by
  have hi0 : (i 0).val < 5000000 := (i 0).isLt
  have hi1 : (i 1).val < 6 := (i 1).isLt
  have hN : cfg0.N = 625 := N_0
  have hlt : (i 0).val / 8000 < cfg0.N := by rw [hN]; omega
  obtain ⟨-, -, -, -, e0, e1⟩ := idx0 ⟨(i 0).val / 8000, hlt⟩
  refine ⟨⟨(i 0).val / 8000, hlt⟩, flush0_2 _, ?_⟩
  rw [mem_blk0]
  intro a
  match a with
  | ⟨0, _⟩ =>
    show win0_2.index ⟨(i 0).val / 8000, hlt⟩ (0 : Fin 2) * 8000 ≤ (i 0).val ∧ (i 0).val < win0_2.index ⟨(i 0).val / 8000, hlt⟩ (0 : Fin 2) * 8000 + 8000
    rw [e0]; show (i 0).val / 8000 * 8000 ≤ (i 0).val ∧ (i 0).val < (i 0).val / 8000 * 8000 + 8000; omega
  | ⟨1, _⟩ =>
    show win0_2.index ⟨(i 0).val / 8000, hlt⟩ (1 : Fin 2) * 6 ≤ (i 1).val ∧ (i 1).val < win0_2.index ⟨(i 0).val / 8000, hlt⟩ (1 : Fin 2) * 6 + 6
    rw [e1]; omega

/-- The array after the first launch. -/
theorem final0 (c : Dev nD) : (dat0 V c).arrAt 2 cfg0.N = Cert.Spec.virial (V c main_arg0) (V c main_arg1) :=
  (dat0 V c).arrAt_eq_of_cover 2 _ (fun t _ => flushed0 V c t) cover0

end Cert.KernelIdeal.KV

end
-- ==== Proof.KBlock1.lean ====
/-
  What one run of the per-atom kernel's body leaves in its two output blocks, as functions of its input blocks.
  Output 3 (the anisotropic rows) is one store of the whole 2000 x 6 block: starting from zero, the five products
  `a r k * K k j` (k = 0 … 4) of the row's entries with the rows of the 5 x 6 coefficient block are added one after
  the other.  Output 4 (the isotropic rows) is four stores that tile the block: the 2000 x 1 input column into each of
  columns 0, 1, 2, and zeros into columns 3-5.
-/
import proofs.«168080_j18382460027059_2_alg».proof.Proof.Gen.KernelIdeal.Frame
import Idealize.ShloMosaic.Lib.Pipeline.Value
import Idealize.ShloMosaic.Lib.ValueIdx
import Idealize.ShloMosaic.Lib.Tactic

noncomputable section

open Idealize.ShloMosaic Idealize.ShloMosaic.TcCoe Idealize.SL.Sem Idealize.ShloMosaic.Tactic
open Idealize.ShloMosaic.ValueIdx

namespace Cert.KernelIdeal.KV1

open Cert.KernelIdeal Cert.KernelIdeal.Gen

theorem hz : (![0, 0] : Fin 2 → Nat) = fun _ => 0 := funext fun a => by fin_cases a <;> rfl

/-- The float zero the body starts its sum from and fills the last columns with. -/
abbrev z0 : EReal := Ideal.ofBits .f32 0x00000000#32

/-- Row `r`, column `j` of output 3: the five products added to zero in order. -/
def ablkAt (a : FVec Ideal S2000x5 .f32) (K : FVec Ideal S5x6 .f32) (r : Fin 2000) (j : Fin 6) : EReal :=
  ((((z0 + a (ix2 r (0 : Fin 5)) * K (ix2 (0 : Fin 5) j)) + a (ix2 r (1 : Fin 5)) * K (ix2 (1 : Fin 5) j))
      + a (ix2 r (2 : Fin 5)) * K (ix2 (2 : Fin 5) j)) + a (ix2 r (3 : Fin 5)) * K (ix2 (3 : Fin 5) j))
    + a (ix2 r (4 : Fin 5)) * K (ix2 (4 : Fin 5) j)

def ablk (a : FVec Ideal S2000x5 .f32) (K : FVec Ideal S5x6 .f32) : FVec Ideal S2000x6 .f32 := fun y => ablkAt a K (y 0) (y 1)

/-- Row `r`, column `j` of output 4. -/
def dblkAt (x : FVec Ideal S2000x1 .f32) (r : Fin 2000) (j : Fin 6) : EReal :=
  if j.val < 3 then x (ix2 r (0 : Fin 1)) else z0

def dblk (x : FVec Ideal S2000x1 .f32) : FVec Ideal S2000x6 .f32 := fun y => dblkAt x (y 0) (y 1)

/-- Column `k` of the 2000 x 5 block spread over the six columns, at (r, j). -/
theorem colB_apply (a : FVec Ideal S2000x5 .f32) (o : Fin 2 → Nat) (k : Fin 5) (ho : o = ![0, k.val])
    (h : S2000x5.Slices o S2000x1) (hb : S2000x1.Broadcasts S2000x6) (r : Fin 2000) (j : Fin 6) :
    broadcastTo S2000x6 (extractStridedSlice S2000x1 o a h) hb (ix2 r j) = a (ix2 r k) := by
  subst ho
  refine (broadcastTo_apply _ hb (ix2 r j) (ix2 r (0 : Fin 1)) fun b => ?_).trans ?_
  · match b with
    | ⟨0, _⟩ => rfl
    | ⟨1, _⟩ => rfl
  · refine extractStridedSlice_apply _ a h _ (ix2 r k) fun b => ?_
    match b with
    | ⟨0, _⟩ => show r.val = 0 + r.val; omega
    | ⟨1, _⟩ => show k.val = k.val + 0; omega

/-- Row `k` of the 5 x 6 block spread over the 2000 rows, at (r, j). -/
theorem rowB_apply (K : FVec Ideal S5x6 .f32) (o : Fin 2 → Nat) (k : Fin 5) (ho : o = ![k.val, 0])
    (h : S5x6.Slices o S1x6) (hb : S1x6.Broadcasts S2000x6) (r : Fin 2000) (j : Fin 6) :
    broadcastTo S2000x6 (extractStridedSlice S1x6 o K h) hb (ix2 r j) = K (ix2 k j) := by
  subst ho
  refine (broadcastTo_apply _ hb (ix2 r j) (ix2 (0 : Fin 1) j) fun b => ?_).trans ?_
  · match b with
    | ⟨0, _⟩ => rfl
    | ⟨1, _⟩ => rfl
  · refine extractStridedSlice_apply _ K h _ (ix2 k j) fun b => ?_
    match b with
    | ⟨0, _⟩ => show k.val = k.val + 0; omega
    | ⟨1, _⟩ => show j.val = 0 + j.val; omega

theorem pay1_apply (a : FVec Ideal S2000x5 .f32) (K : FVec Ideal S5x6 .f32) (r : Fin 2000) (j : Fin 6) :
    k1_pay1 (F := Ideal) a K (ix2 r j) = ablkAt a K r j := by
  unfold k1_pay1 ablkAt
  simp only [addf_apply, mulf_apply]
  rw [colB_apply a ![0, 0] 0 rfl, colB_apply a ![0, 1] 1 rfl, colB_apply a ![0, 2] 2 rfl, colB_apply a ![0, 3] 3 rfl, colB_apply a ![0, 4] 4 rfl,
    rowB_apply K ![0, 0] 0 rfl, rowB_apply K ![1, 0] 1 rfl, rowB_apply K ![2, 0] 2 rfl, rowB_apply K ![3, 0] 3 rfl, rowB_apply K ![4, 0] 4 rfl]
  rfl

/-- Output 3's block is `ablk` of the two input blocks it reads. -/
theorem out3_eq (c : Dev nD) (i : grid1.Coords) (a1 : Memref sig .tc .vmem S2000x1 .f32) (h1 : a1.IsWhole)
    (a2 : Memref sig .tc .vmem S2000x5 .f32) (h2 : a2.IsWhole) (a3 : Memref sig .tc .vmem S5x6 .f32) (h3 : a3.IsWhole)
    (a4 : Memref sig .tc .vmem S2000x6 .f32) (h4 : a4.IsWhole) (a5 : Memref sig .tc .vmem S2000x6 .f32) (h5 : a5.IsWhole)
    (x0 : Vec Ideal S2000x1 .f32) (x1 : Vec Ideal S2000x5 .f32) (x2 : Vec Ideal S5x6 .f32) :
    out1_A_3 (F := Ideal) c i a1 h1 a2 h2 a3 h3 a4 h4 a5 h5 x0 x1 x2 = ablk x1 x2 := by
  unfold out1_A_3
  rw [View.read_writes_junk_eq_canon]
  unfold kernelRun1_A
  dsimp only
  rw [View.canon_unit_zero (S := S2000x6) hz]
  simp only [View.readAt_eq_ld, h2.read_unread, h3.read_unread, View.ld_unit_zero (S := S2000x5) hz, View.ld_unit_zero (S := S5x6) hz]
  funext y
  obtain ⟨r, j, rfl⟩ : ∃ (r : Fin 2000) (j : Fin 6), y = ix2 r j := ⟨y 0, y 1, eq_ix2 y⟩
  exact pay1_apply x1 x2 r j

/-- The place of an entry of a one-column piece stored at column `q` of the block. -/
theorem emb_col (q : Fin 6) (o : Fin 2 → Nat) (ho : o = ![0, q.val]) (inb : ∀ a, o a + S2000x1.size a ≤ S2000x6.size a) (r : Fin 2000) (s : Fin 1) :
    (Rect.unit (s := S2000x6) o S2000x1.size inb).emb (ix2 r s) = ix2 r q := by
  subst ho
  have h1 : s.val < 1 := s.isLt
  funext a
  match a with
  | ⟨0, _⟩ => exact Fin.ext (by show 0 + 1 * r.val = r.val; omega)
  | ⟨1, _⟩ => exact Fin.ext (by show q.val + 1 * s.val = q.val; omega)

/-- The place of an entry of the three-column piece stored at column 3. -/
theorem emb_tail (inb : ∀ a, (![0, 3] : Fin 2 → Nat) a + S2000x3.size a ≤ S2000x6.size a) (r : Fin 2000) (s : Fin 3) :
    (Rect.unit (s := S2000x6) ![0, 3] S2000x3.size inb).emb (ix2 r s)
      = ix2 r (⟨3 + s.val, by have := s.isLt; omega⟩ : Fin 6) := by
  funext a
  match a with
  | ⟨0, _⟩ => exact Fin.ext (by show 0 + 1 * r.val = r.val; omega)
  | ⟨1, _⟩ => exact Fin.ext (by show 3 + 1 * s.val = 3 + s.val; omega)

/-- The input column stored at column `q` (q = 0, 1, 2) agrees with the block function there. -/
theorem piece_col (x0 : FVec Ideal S2000x1 .f32) (q : Fin 6) (hq : q.val < 3) (o : Fin 2 → Nat) (ho : o = ![0, q.val])
    (inb : ∀ a, o a + S2000x1.size a ≤ S2000x6.size a) :
    ∀ x : S2000x1.Idx, x0 x = dblk x0 ((Rect.unit (s := S2000x6) o S2000x1.size inb).emb x) := by
  intro x
  obtain ⟨r, s, rfl⟩ : ∃ (r : Fin 2000) (s : Fin 1), x = ix2 r s := ⟨x 0, x 1, eq_ix2 x⟩
  rw [emb_col q o ho inb r s]
  show _ = dblkAt x0 r q
  unfold dblkAt
  rw [if_pos hq]
  have h1 : s.val < 1 := s.isLt
  have hs : s = (0 : Fin 1) := Fin.ext (by show s.val = 0; omega)
  rw [hs]

/-- The zero piece stored at columns 3-5 agrees with the block function there. -/
theorem piece_tail (x0 : FVec Ideal S2000x1 .f32) (inb : ∀ a, (![0, 3] : Fin 2 → Nat) a + S2000x3.size a ≤ S2000x6.size a) :
    ∀ x : S2000x3.Idx, k1_pay2 (F := Ideal) x = dblk x0 ((Rect.unit (s := S2000x6) ![0, 3] S2000x3.size inb).emb x) := by
  intro x
  obtain ⟨r, s, rfl⟩ : ∃ (r : Fin 2000) (s : Fin 3), x = ix2 r s := ⟨x 0, x 1, eq_ix2 x⟩
  rw [emb_tail inb r s]
  show _ = dblkAt x0 r ⟨3 + s.val, _⟩
  unfold dblkAt
  rw [if_neg (show ¬ ((⟨3 + s.val, by have := s.isLt; omega⟩ : Fin 6)).val < 3 from by show ¬ (3 + s.val < 3); omega)]
  rfl

/-- Output 4's block is `dblk` of the one input block it reads. -/
theorem out4_eq (c : Dev nD) (i : grid1.Coords) (a1 : Memref sig .tc .vmem S2000x1 .f32) (h1 : a1.IsWhole)
    (a2 : Memref sig .tc .vmem S2000x5 .f32) (h2 : a2.IsWhole) (a3 : Memref sig .tc .vmem S5x6 .f32) (h3 : a3.IsWhole)
    (a4 : Memref sig .tc .vmem S2000x6 .f32) (h4 : a4.IsWhole) (a5 : Memref sig .tc .vmem S2000x6 .f32) (h5 : a5.IsWhole)
    (x0 : Vec Ideal S2000x1 .f32) (x1 : Vec Ideal S2000x5 .f32) (x2 : Vec Ideal S5x6 .f32) :
    out1_A_4 (F := Ideal) c i a1 h1 a2 h2 a3 h3 a4 h4 a5 h5 x0 x1 x2 = dblk x0 := by
  unfold out1_A_4
  rw [View.read_writes_junk_eq_canon]
  funext y
  refine View.canon_apply_of_pieces (dblk x0) _ ?_ y (cover1_A_4 c i a1 h1 a2 h2 a3 h3 a4 h4 a5 h5 x0 x1 x2 y)
  intro p hp
  unfold kernelRun1_A at hp
  dsimp only at hp
  simp only [View.readAt_eq_ld, h1.read_unread, View.ld_unit_zero (S := S2000x1) hz,
    List.mem_cons, List.not_mem_nil, or_false] at hp
  rcases hp with rfl | rfl | rfl | rfl
  · exact piece_tail x0 inb_S2000x6_S2000x3_0_3
  · exact piece_col x0 2 (by decide) _ rfl inb_S2000x6_S2000x1_0_2
  · exact piece_col x0 1 (by decide) _ rfl inb_S2000x6_S2000x1_0_1
  · exact piece_col x0 0 (by decide) _ rfl inb_S2000x6_S2000x1_0_0

end Cert.KernelIdeal.KV1

end
-- ==== Proof.KArrays1.lean ====
/-
  The second launch's two result arrays.  The launch runs the per-atom body at 100 grid points; point `t` reads rows
  2000 t … 2000 t + 1999 of the atoms x 1 and atoms x 5 arrays and the whole 5 x 6 coefficient array, and writes back rows
  2000 t … 2000 t + 1999 of two atoms x 6 arrays.  The blocks tile the arrays.  Row by row the first output is the row of
  the atoms x 5 array times the coefficient matrix — the body's five products added to zero in order are the sum over the
  five shared coordinates, because adding zero changes nothing — and the second is `Cert.Spec.dev`.
-/
import proofs.«168080_j18382460027059_2_alg».proof.Proof.KBlock1
import proofs.«168080_j18382460027059_2_alg».proof.Proof.Spec
import Idealize.ShloMosaic.PureOps.Ideal.Laws

set_option maxRecDepth 16384

noncomputable section

open scoped BigOperators
open Idealize.ShloMosaic Idealize.ShloMosaic.TcCoe Idealize.SL.Sem Idealize.ShloMosaic.Tactic
open Idealize.ShloMosaic.ValueIdx
open Idealize.ShloMosaic.Pipeline (Dat)

namespace Cert.KernelIdeal.KV1

open Cert.KernelIdeal Cert.KernelIdeal.Gen

variable (V : (c : Dev nD) → (b : Ref sig .tc) → Buf (Elt Ideal) ((c : Thread nD τ).loc b))

/-- At point `t` the row-blocked windows have block index `(t, 0)`, the coefficient window `(0, 0)`. -/
theorem idx1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = t.val ∧ win1_4.index t (1 : Fin 2) = 0 :=
  (by decide +kernel : ∀ t : Fin grid1.N, _)

/-- Row `r` of point `t`'s blocks is row `2000 t + r` of the arrays. -/
def arow (t : Fin cfg1.N) (r : Fin 2000) : Fin 200000 :=
  ⟨t.val * 2000 + r.val, by have := t.isLt; have hN : cfg1.N = 100 := N_1; have := r.isLt; omega⟩

/-- Five products added to zero in order are the sum over the five coordinates. -/
theorem ablkAt_eq (X : FVec Ideal S2000x5 .f32) (K : FVec Ideal S5x6 .f32) (A : FVec Ideal Cert.Spec.SA5 .f32) (E : Fin 2000 → Fin 200000)
    (h : ∀ (r : Fin 2000) (k : Fin 5), X (ix2 r k) = A (ix2 (E r) k)) (r : Fin 2000) (j : Fin 6) :
    ablkAt X K r j = Cert.Spec.andev A K (ix2 (E r) j) := by
  rw [Cert.Spec.andev_ix, Fin.sum_univ_five]
  unfold ablkAt
  simp only [h]
  rw [show z0 = (0 : EReal) from Ideal.ofBits_zero_f32, zero_add]

theorem dblkAt_eq (X : FVec Ideal S2000x1 .f32) (A : FVec Ideal Cert.Spec.SA1 .f32) (E : Fin 2000 → Fin 200000)
    (h : ∀ (r : Fin 2000) (k : Fin 1), X (ix2 r k) = A (ix2 (E r) k)) (r : Fin 2000) (j : Fin 6) :
    dblkAt X r j = Cert.Spec.dev A (ix2 (E r) j) := by
  rw [Cert.Spec.dev_ix]
  unfold dblkAt
  simp only [h]

theorem iblk1_0 (c : Dev nD) (t : Fin cfg1.N) (r : Fin 2000) (p : Fin 1) :
    (iblk1 V c 0 t : FVec Ideal S2000x1 .f32) (ix2 r p) = (V c main_arg2 : FVec Ideal Cert.Spec.SA1 .f32) (ix2 (arow t r) p) := by
  obtain ⟨e0, e1, -⟩ := idx1 t
  show V c main_arg2 (((cfg1.win 0).blk t).view.emb (ix2 r p)) = V c main_arg2 (ix2 (arow t r) p)
  refine congrArg (V c main_arg2) (funext fun a => Fin.ext ?_)
  match a with
  | ⟨0, _⟩ => show win1_0.index t (0 : Fin 2) * 2000 + 1 * r.val = t.val * 2000 + r.val; rw [e0]; omega
  | ⟨1, _⟩ => show win1_0.index t (1 : Fin 2) * 1 + 1 * p.val = p.val; rw [e1]; omega

theorem iblk1_1 (c : Dev nD) (t : Fin cfg1.N) (r : Fin 2000) (p : Fin 5) :
    (iblk1 V c 1 t : FVec Ideal S2000x5 .f32) (ix2 r p) = (V c main_arg3 : FVec Ideal Cert.Spec.SA5 .f32) (ix2 (arow t r) p) := by
  obtain ⟨-, -, e0, e1, -⟩ := idx1 t
  show V c main_arg3 (((cfg1.win 1).blk t).view.emb (ix2 r p)) = V c main_arg3 (ix2 (arow t r) p)
  refine congrArg (V c main_arg3) (funext fun a => Fin.ext ?_)
  match a with
  | ⟨0, _⟩ => show win1_1.index t (0 : Fin 2) * 2000 + 1 * r.val = t.val * 2000 + r.val; rw [e0]; omega
  | ⟨1, _⟩ => show win1_1.index t (1 : Fin 2) * 5 + 1 * p.val = p.val; rw [e1]; omega

/-- The coefficient window's one block is the whole coefficient array. -/
theorem iblk1_2 (c : Dev nD) (t : Fin cfg1.N) :
    (iblk1 V c 2 t : FVec Ideal S5x6 .f32) = (V c main_cst : FVec Ideal S5x6 .f32) := by
  obtain ⟨-, -, -, -, e0, e1, -⟩ := idx1 t
  funext y
  show V c main_cst (((cfg1.win 2).blk t).view.emb y) = V c main_cst y
  refine congrArg (V c main_cst) (funext fun a => Fin.ext ?_)
  match a with
  | ⟨0, _⟩ => show win1_2.index t (0 : Fin 2) * 5 + 1 * (y 0).val = (y 0).val; rw [e0]; omega
  | ⟨1, _⟩ => show win1_2.index t (1 : Fin 2) * 6 + 1 * (y 1).val = (y 1).val; rw [e1]; omega

theorem emb1_3 (t : Fin cfg1.N) (r : Fin 2000) (q : Fin 6) :
    ((cfg1.win 3).blk t).view.emb (ix2 r q) = (ix2 (arow t r) q : S200000x6.Idx) := by
  obtain ⟨-, -, -, -, -, -, e0, e1, -⟩ := idx1 t
  funext a
  match a with
  | ⟨0, _⟩ => exact Fin.ext (by show win1_3.index t (0 : Fin 2) * 2000 + 1 * r.val = t.val * 2000 + r.val; rw [e0]; omega)
  | ⟨1, _⟩ => exact Fin.ext (by show win1_3.index t (1 : Fin 2) * 6 + 1 * q.val = q.val; rw [e1]; omega)

theorem emb1_4 (t : Fin cfg1.N) (r : Fin 2000) (q : Fin 6) :
    ((cfg1.win 4).blk t).view.emb (ix2 r q) = (ix2 (arow t r) q : S200000x6.Idx) := by
  obtain ⟨-, -, -, -, -, -, -, -, e0, e1⟩ := idx1 t
  funext a
  match a with
  | ⟨0, _⟩ => exact Fin.ext (by show win1_4.index t (0 : Fin 2) * 2000 + 1 * r.val = t.val * 2000 + r.val; rw [e0]; omega)
  | ⟨1, _⟩ => exact Fin.ext (by show win1_4.index t (1 : Fin 2) * 6 + 1 * q.val = q.val; rw [e1]; omega)

/-- What point `t` writes back through window 3 is block `t` of the atoms x 5 array times the coefficient array. -/
theorem flushed3 (c : Dev nD) (t : Fin cfg1.N) :
    (dat1 V c).flushed 3 t = ((cfg1.win 3).blk t).view.read (Elt Ideal) (Cert.Spec.andev (V c main_arg3) (V c main_cst)) := by
  show (cfg1.win 3).cut (grid1.coords t) ((dat1 V c).after 3 t) = _
  rw [after1_3]
  unfold outsAt1
  dsimp only
  rw [out3_eq, iblk1_2 V c t]
  funext j
  obtain ⟨r, q, rfl⟩ : ∃ (r : Fin 2000) (q : Fin 6), j = ix2 r q := ⟨j 0, j 1, eq_ix2 j⟩
  show ablkAt (iblk1 V c 1 t) (V c main_cst) r q
    = Cert.Spec.andev (V c main_arg3) (V c main_cst) (((cfg1.win 3).blk t).view.emb (ix2 r q))
  rw [emb1_3 t r q]
  exact ablkAt_eq _ _ _ (arow t) (iblk1_1 V c t) r q

/-- What point `t` writes back through window 4 is block `t` of `Cert.Spec.dev` of the atoms x 1 array. -/
theorem flushed4 (c : Dev nD) (t : Fin cfg1.N) :
    (dat1 V c).flushed 4 t = ((cfg1.win 4).blk t).view.read (Elt Ideal) (Cert.Spec.dev (V c main_arg2)) := by
  show (cfg1.win 4).cut (grid1.coords t) ((dat1 V c).after 4 t) = _
  rw [after1_4]
  unfold outsAt1
  dsimp only
  rw [out4_eq]
  funext j
  obtain ⟨r, q, rfl⟩ : ∃ (r : Fin 2000) (q : Fin 6), j = ix2 r q := ⟨j 0, j 1, eq_ix2 j⟩
  show dblkAt (iblk1 V c 0 t) r q = Cert.Spec.dev (V c main_arg2) (((cfg1.win 4).blk t).view.emb (ix2 r q))
  rw [emb1_4 t r q]
  exact dblkAt_eq _ _ (arow t) (iblk1_0 V c t) r q

theorem mem_blk3 (t : Fin cfg1.N) (i : S200000x6.Idx) :
    i ∈ ((cfg1.win 3).blk t).view.set ↔ ∀ a : Fin 2, win1_3.index t a * S2000x6.size a ≤ (i a).val ∧ (i a).val < win1_3.index t a * S2000x6.size a + S2000x6.size a := by
  show i ∈ ((View.whole main_v3_0).slice (win1_3.rect t)).set ↔ _
  rw [View.set_slice_whole, Rect.mem_set_unit]
  exact Iff.rfl

theorem mem_blk4 (t : Fin cfg1.N) (i : S200000x6.Idx) :
    i ∈ ((cfg1.win 4).blk t).view.set ↔ ∀ a : Fin 2, win1_4.index t a * S2000x6.size a ≤ (i a).val ∧ (i a).val < win1_4.index t a * S2000x6.size a + S2000x6.size a := by
  show i ∈ ((View.whole main_v3_1).slice (win1_4.rect t)).set ↔ _
  rw [View.set_slice_whole, Rect.mem_set_unit]
  exact Iff.rfl

theorem cover3 (i : S200000x6.Idx) : ∃ t : Fin cfg1.N, (cfg1.win 3).flush t = true ∧ i ∈ ((cfg1.win 3).blk t).view.set := by
  have hi0 : (i 0).val < 200000 := (i 0).isLt
  have hi1 : (i 1).val < 6 := (i 1).isLt
  have hN : cfg1.N = 100 := N_1
  have hlt : (i 0).val / 2000 < cfg1.N := by rw [hN]; omega
  obtain ⟨-, -, -, -, -, -, e0, e1, -⟩ := idx1 ⟨(i 0).val / 2000, hlt⟩
  refine ⟨⟨(i 0).val / 2000, hlt⟩, flush1_3 _, ?_⟩
  rw [mem_blk3]
  intro a
  match a with
  | ⟨0, _⟩ =>
    show win1_3.index ⟨(i 0).val / 2000, hlt⟩ (0 : Fin 2) * 2000 ≤ (i 0).val ∧ (i 0).val < win1_3.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_3.index ⟨(i 0).val / 2000, hlt⟩ (1 : Fin 2) * 6 ≤ (i 1).val ∧ (i 1).val < win1_3.index ⟨(i 0).val / 2000, hlt⟩ (1 : Fin 2) * 6 + 6
    rw [e1]; omega

theorem cover4 (i : S200000x6.Idx) : ∃ t : Fin cfg1.N, (cfg1.win 4).flush t = true ∧ i ∈ ((cfg1.win 4).blk t).view.set := by
  have hi0 : (i 0).val < 200000 := (i 0).isLt
  have hi1 : (i 1).val < 6 := (i 1).isLt
  have hN : cfg1.N = 100 := N_1
  have hlt : (i 0).val / 2000 < cfg1.N := by rw [hN]; omega
  obtain ⟨-, -, -, -, -, -, -, -, e0, e1⟩ := idx1 ⟨(i 0).val / 2000, hlt⟩
  refine ⟨⟨(i 0).val / 2000, hlt⟩, flush1_4 _, ?_⟩
  rw [mem_blk4]
  intro a
  match a with
  | ⟨0, _⟩ =>
    show win1_4.index ⟨(i 0).val / 2000, hlt⟩ (0 : Fin 2) * 2000 ≤ (i 0).val ∧ (i 0).val < win1_4.index ⟨(i 0).val / 2000, hlt⟩ (0 : Fin 2) * 2000 + 2000
    rw [e0]; show (i 0).val / 2000 * 2000 ≤ (i 0).val ∧ (i 0).val < (i 0).val / 2000 * 2000 + 2000; omega
  | ⟨1, _⟩ =>
    show win1_4.index ⟨(i 0).val / 2000, hlt⟩ (1 : Fin 2) * 6 ≤ (i 1).val ∧ (i 1).val < win1_4.index ⟨(i 0).val / 2000, hlt⟩ (1 : Fin 2) * 6 + 6
    rw [e1]; omega

/-- The first result array of the second launch. -/
theorem final3 (c : Dev nD) : (dat1 V c).arrAt 3 cfg1.N = Cert.Spec.andev (V c main_arg3) (V c main_cst) :=
  (dat1 V c).arrAt_eq_of_cover 3 _ (fun t _ => flushed3 V c t) cover3

/-- The second result array of the second launch. -/
theorem final4 (c : Dev nD) : (dat1 V c).arrAt 4 cfg1.N = Cert.Spec.dev (V c main_arg2) :=
  (dat1 V c).arrAt_eq_of_cover 4 _ (fun t _ => flushed4 V c t) cover4

end Cert.KernelIdeal.KV1

end
-- ==== Proof.RefTerms.lean ====
/-
  The reference's results as terms of its argument arrays.  The reference computes five results:
  the total energy (a sum over the batch), the forces (two segment sums of `fij` over the two rows of the edge list,
  subtracted), the stress (the per-edge virial summed into atoms, then into batches, negated and divided by the volume),
  and two batch sums of per-atom arrays.  The three per-row arrays (`virialT`, `andevT`, `devT`) are named apart from
  the chains of segment sums applied to them (`stress`, `segsum`), because only the former differ from the kernel's
  program.
-/
import proofs.«168080_j18382460027059_2_alg».proof.Proof.Gen.ReferenceIdeal

noncomputable section

namespace Cert.ReferenceIdeal.RefRun

open Cert.ReferenceIdeal Idealize.ShloMosaic Idealize.ShloMosaic.TcCoe Idealize.SL.Sem
open Cert.ReferenceIdeal.Facts₀

variable {F : FTy → Type} [FloatOps F]

/-- The contents of a buffer of shape `s` and element type `e`. -/
abbrev Arr (s : Shape) (e : EltTy) : Type := (⟨s, e⟩ : BufTy).Contents (Elt F)

/-- An all-zero float array (a broadcast zero constant). -/
def zerosE3 : Arr (F := F) S200000x3 .f32 := broadcastInDim S200000x3 ![] bcast_S_S200000x3 (constant S_ .f32 0x00000000#32)
def zerosA6 : Arr (F := F) S200000x6 .f32 := broadcastInDim S200000x6 ![] bcast_S_S200000x6 (constant S_ .f32 0x00000000#32)
def zerosB6 : Arr (F := F) S32x6 .f32 := broadcastInDim S32x6 ![] bcast_S_S32x6 (constant S_ .f32 0x00000000#32)

/-- Row 0 of the edge list as a column of segment indices. -/
def edgeRow0 (a6 : Arr (F := F) S2x5000000 .i32) : Arr (F := F) S5000000x1 .i32 :=
  broadcastInDim S5000000x1 ![0] bcast_S5000000_S5000000x1_0
    (shapeCast S5000000 (extractStridedSlice S1x5000000 ![0, 0] a6 slices_S2x5000000_S1x5000000_0_0) shapeCasts_S1x5000000_S5000000)
/-- Row 1 of the edge list as a column of segment indices. -/
def edgeRow1 (a6 : Arr (F := F) S2x5000000 .i32) : Arr (F := F) S5000000x1 .i32 :=
  broadcastInDim S5000000x1 ![0] bcast_S5000000_S5000000x1_0
    (shapeCast S5000000 (extractStridedSlice S1x5000000 ![1, 0] a6 slices_S2x5000000_S1x5000000_1_0) shapeCasts_S1x5000000_S5000000)
/-- The batch index of every atom as a column of segment indices. -/
def batchCol (a7 : Arr (F := F) S200000 .i32) : Arr (F := F) S200000x1 .i32 :=
  broadcastInDim S200000x1 ![0] bcast_S200000_S200000x1_0 a7

/-- The total energy: the sum of the batch energies. -/
def etot (a5 : Arr (F := F) S32x1 .f32) : Arr (F := F) S_ .f32 :=
  Host.reduceAdd (shapeCast S32 a5 shapeCasts_S32x1_S32) (constant S_ .f32 0x00000000#32) reducesTo_S32_S_d0 h_S_

/-- The forces: `fij` summed into the atoms of row 0 of the edge list, minus the same sum over row 1. -/
def force (a1 : Arr (F := F) S5000000x3 .f32) (a6 : Arr (F := F) S2x5000000 .i32) : Arr (F := F) S200000x3 .f32 :=
  subf (Host.scatterAdd scatter_S200000x3_S5000000x1_S5000000x3_1_0_0_1 zerosE3 (edgeRow0 a6) a1)
       (Host.scatterAdd scatter_S200000x3_S5000000x1_S5000000x3_1_0_0_1 zerosE3 (edgeRow1 a6) a1)

/-- A per-atom array summed into batches. -/
def segsum (a7 : Arr (F := F) S200000 .i32) (X : Arr (F := F) S200000x6 .f32) : Arr (F := F) S32x6 .f32 :=
  Host.scatterAdd scatter_S32x6_S200000x1_S200000x6_1_0_0_1 zerosB6 (batchCol a7) X

/-- The stress from the per-edge virial `X`: summed into the atoms of row 1 of the edge list, then into batches,
    negated, divided by the batch volume. -/
def stress (a4 : Arr (F := F) S32 .f32) (a6 : Arr (F := F) S2x5000000 .i32) (a7 : Arr (F := F) S200000 .i32)
    (X : Arr (F := F) S5000000x6 .f32) : Arr (F := F) S32x6 .f32 :=
  Host.divf
    (Host.negf (segsum a7 (Host.scatterAdd scatter_S200000x6_S5000000x1_S5000000x6_1_0_0_1 zerosA6 (edgeRow1 a6) X)))
    (broadcastInDim S32x6 ![0, 1] bcast_S32x1_S32x6_0_1 (broadcastInDim S32x1 ![0] bcast_S32_S32x1_0 a4))

/-- One column of an edges x 3 array as a flat vector. -/
def col (o : Fin 2 → Nat) (h : S5000000x3.Slices o S5000000x1) (a : Arr (F := F) S5000000x3 .f32) : Arr (F := F) S5000000 .f32 :=
  shapeCast S5000000 (extractStridedSlice S5000000x1 o a h) shapeCasts_S5000000x1_S5000000

/-- The product of column `p` of `rij` and column `q` of `fij`, as a column. -/
def cross (o p : Fin 2 → Nat) (ho : S5000000x3.Slices o S5000000x1) (hp : S5000000x3.Slices p S5000000x1)
    (a0 a1 : Arr (F := F) S5000000x3 .f32) : Arr (F := F) S5000000x1 .f32 :=
  broadcastInDim S5000000x1 ![0] bcast_S5000000_S5000000x1_0 (mulf (col o ho a0) (col p hp a1))

/-- The reference's per-edge virial: the elementwise product beside the three cross columns. -/
def virialT (a0 a1 : Arr (F := F) S5000000x3 .f32) : Arr (F := F) S5000000x6 .f32 :=
  concatenate S5000000x6 1
    [⟨S5000000x3, mulf a0 a1⟩,
     ⟨S5000000x1, cross ![0, 0] ![0, 1] slices_S5000000x3_S5000000x1_0_0 slices_S5000000x3_S5000000x1_0_1 a0 a1⟩,
     ⟨S5000000x1, cross ![0, 1] ![0, 2] slices_S5000000x3_S5000000x1_0_1 slices_S5000000x3_S5000000x1_0_2 a0 a1⟩,
     ⟨S5000000x1, cross ![0, 2] ![0, 0] slices_S5000000x3_S5000000x1_0_2 slices_S5000000x3_S5000000x1_0_0 a0 a1⟩]
    concatenates_S5000000x3_S5000000x1_S5000000x1_S5000000x1_S5000000x6_d1

/-- The reference's 6 x 5 coefficient table, transposed to 5 x 6. -/
def coefT : Arr (F := F) S5x6 .f32 :=
  transpose S5x6 [1, 0] (fun i => FloatOps.ofBits .f32 (lit0 (S6x5.rowMajor i)) : Arr (F := F) S6x5 .f32) transposes_S6x5_S5x6_1_0

/-- The reference's anisotropic rows: `aniso` times the transposed table. -/
def andevT (a3 : Arr (F := F) S200000x5 .f32) : Arr (F := F) S200000x6 .f32 :=
  Host.dotGeneral dot_S200000x5_S5x6_S200000x6_1_0_0_1_n_n none a3 coefT

/-- The reference's isotropic rows: `iso` three times beside three zero columns. -/
def devT (a2 : Arr (F := F) S200000x1 .f32) : Arr (F := F) S200000x6 .f32 :=
  concatenate S200000x6 1 [⟨S200000x1, a2⟩, ⟨S200000x1, a2⟩, ⟨S200000x1, a2⟩, ⟨S200000x3, zerosE3⟩]
    concatenates_S200000x1_S200000x1_S200000x1_S200000x3_S200000x6_d1

end Cert.ReferenceIdeal.RefRun

end
-- ==== Proof.KTail.lean ====
/-
  The host operations of the idealized kernel's program, read back.  The operations after the two launches are the
  reference's chains of segment sums (`force`, `stress`, `segsum`: the same operations on the same shapes) applied to
  the two launches' result arrays; the operations before them compute the total energy and the coefficient array and
  write no argument array.
-/
import proofs.«168080_j18382460027059_2_alg».proof.Proof.Gen.KernelIdeal.Launch
import proofs.«168080_j18382460027059_2_alg».proof.Proof.RefTerms
import Idealize.ShloMosaic.Lib.StableHlo.Run

set_option maxRecDepth 16384

noncomputable section

open Idealize.ShloMosaic Idealize.ShloMosaic.TcCoe Idealize.SL.Sem Idealize.ShloMosaic.Tactic
open Idealize.ShloMosaic.StableHlo
open Idealize.ShloMosaic.Pipeline (Dat)

namespace Cert.KernelIdeal.KV2

open Cert.KernelIdeal Cert.KernelIdeal.Gen
open Cert.ReferenceIdeal.RefRun (etot force stress segsum)

/-! ## The host operations after the launches, over any contents `W` of the buffers they read -/

section Tail
variable {F : FTy → Type} [FloatOps F] (W : Valuation τ sig (Elt F))

theorem tail_v14 : after hostOps2 W (Proc.devRef .tc main_v14) = force (W (Proc.devRef .tc main_arg1)) (W (Proc.devRef .tc main_arg6)) := by
  after_results_simp
  rfl

theorem tail_v26 : after hostOps2 W (Proc.devRef .tc main_v26)
    = stress (W (Proc.devRef .tc main_arg4)) (W (Proc.devRef .tc main_arg6)) (W (Proc.devRef .tc main_arg7)) (W (Proc.devRef .tc main_v2)) := by
  after_results_simp
  rfl

theorem tail_v29 : after hostOps2 W (Proc.devRef .tc main_v29) = segsum (W (Proc.devRef .tc main_arg7)) (W (Proc.devRef .tc main_v3_0)) := by
  after_results_simp
  rfl

theorem tail_v32 : after hostOps2 W (Proc.devRef .tc main_v32) = segsum (W (Proc.devRef .tc main_arg7)) (W (Proc.devRef .tc main_v3_1)) := by
  after_results_simp
  rfl

theorem tail_v1 : after hostOps2 W (Proc.devRef .tc main_v1) = W (Proc.devRef .tc main_v1) := by
  after_results_simp

theorem head_v1 : after hostOps0 W (Proc.devRef .tc main_v1) = etot (W (Proc.devRef .tc main_arg5)) := by
  after_results
  rfl

theorem head_cst : after hostOps0 W (Proc.devRef .tc main_cst) = (fun i => FloatOps.ofBits .f32 (lit0 (S5x6.rowMajor i))) := by
  after_results
  rfl

theorem head_arg0 : after hostOps0 W (Proc.devRef .tc main_arg0) = W (Proc.devRef .tc main_arg0) := by after_results
theorem head_arg1 : after hostOps0 W (Proc.devRef .tc main_arg1) = W (Proc.devRef .tc main_arg1) := by after_results
theorem head_arg2 : after hostOps0 W (Proc.devRef .tc main_arg2) = W (Proc.devRef .tc main_arg2) := by after_results
theorem head_arg3 : after hostOps0 W (Proc.devRef .tc main_arg3) = W (Proc.devRef .tc main_arg3) := by after_results
theorem head_arg4 : after hostOps0 W (Proc.devRef .tc main_arg4) = W (Proc.devRef .tc main_arg4) := by after_results
theorem head_arg6 : after hostOps0 W (Proc.devRef .tc main_arg6) = W (Proc.devRef .tc main_arg6) := by after_results
theorem head_arg7 : after hostOps0 W (Proc.devRef .tc main_arg7) = W (Proc.devRef .tc main_arg7) := by after_results

end Tail

end Cert.KernelIdeal.KV2

end
-- ==== Proof.KernelRun.lean ====
/-
  The idealized kernel's program, run: every weakly fair execution from a memory with zero counters terminates without a
  fault, and at the end every buffer that lives through the whole program holds the contents obtained by folding the
  program's four stretches over the launch memory: the host operations before the two launches, the first launch's
  write-backs (the per-edge virial), the second launch's write-backs (the two per-atom arrays), and the host
  operations after them (the segment sums).  The fold is the one the frame proof walks; here its last stage is kept for
  every buffer, not only for the arguments.
-/
import proofs.«168080_j18382460027059_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- At the end of the program every unscoped buffer holds the last stage of the fold. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W4 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c b hb => h c _ (mem_uc b hb))

end Cert.KernelIdeal.KV

end
-- ==== Proof.KValues.lean ====
/-
  The idealized kernel's five results as terms of its argument arrays, and its run stated with them.
  The fold of the program over the launch memory is read back stage by stage.  No host operation before the launches
  and neither launch writes an argument array, so the launches find the arguments as launched; the first launch leaves the
  per-edge virial `Cert.Spec.virial rij fij`, the second `Cert.Spec.andev aniso K` (with `K` the 5 x 6 coefficient table
  the program builds) and `Cert.Spec.dev iso`; the host operations after them are the chains of segment sums `force`,
  `stress`, `segsum` on those arrays, and the total energy `etot` was computed before the launches and is not touched.
-/
import proofs.«168080_j18382460027059_2_alg».proof.Proof.KArrays0
import proofs.«168080_j18382460027059_2_alg».proof.Proof.KArrays1
import proofs.«168080_j18382460027059_2_alg».proof.Proof.KTail
import proofs.«168080_j18382460027059_2_alg».proof.Proof.KernelRun

set_option maxRecDepth 16384

noncomputable section

open Idealize.ShloMosaic Idealize.ShloMosaic.TcCoe Idealize.SL.Sem Idealize.ShloMosaic.Tactic
open Idealize.ShloMosaic.StableHlo
open Idealize.ShloMosaic.Pipeline (Dat)

namespace Cert.KernelIdeal.KV2

open Cert.KernelIdeal Cert.KernelIdeal.Gen
open Cert.ReferenceIdeal.RefRun (etot force stress segsum)

variable (m : (ℓ : Loc nD τ sig) → Buf (Elt Ideal) ℓ) (ρ : Dev nD → PrngReg)

/-- The 5 x 6 coefficient table the program builds before the launches. -/
def coefK : FVec Ideal S5x6 .f32 := fun i => FloatOps.ofBits (F := Ideal) .f32 (lit0 (S5x6.rowMajor i))

/-! ## Before the first launch -/

theorem W1_arg0 (c : Dev nD) : W1 m ρ c (Proc.devRef .tc main_arg0) = m ((c : Thread nD τ).loc main_arg0) := (head_arg0 (W0 m ρ c)).trans rfl
theorem W1_arg1 (c : Dev nD) : W1 m ρ c (Proc.devRef .tc main_arg1) = m ((c : Thread nD τ).loc main_arg1) := (head_arg1 (W0 m ρ c)).trans rfl
theorem W1_arg2 (c : Dev nD) : W1 m ρ c (Proc.devRef .tc main_arg2) = m ((c : Thread nD τ).loc main_arg2) := (head_arg2 (W0 m ρ c)).trans rfl
theorem W1_arg3 (c : Dev nD) : W1 m ρ c (Proc.devRef .tc main_arg3) = m ((c : Thread nD τ).loc main_arg3) := (head_arg3 (W0 m ρ c)).trans rfl
theorem W1_arg4 (c : Dev nD) : W1 m ρ c (Proc.devRef .tc main_arg4) = m ((c : Thread nD τ).loc main_arg4) := (head_arg4 (W0 m ρ c)).trans rfl
theorem W1_arg6 (c : Dev nD) : W1 m ρ c (Proc.devRef .tc main_arg6) = m ((c : Thread nD τ).loc main_arg6) := (head_arg6 (W0 m ρ c)).trans rfl
theorem W1_arg7 (c : Dev nD) : W1 m ρ c (Proc.devRef .tc main_arg7) = m ((c : Thread nD τ).loc main_arg7) := (head_arg7 (W0 m ρ c)).trans rfl
theorem W1_cst (c : Dev nD) : W1 m ρ c (Proc.devRef .tc main_cst) = coefK := head_cst (W0 m ρ c)
theorem W1_v1 (c : Dev nD) : W1 m ρ c (Proc.devRef .tc main_v1) = etot (m ((c : Thread nD τ).loc main_arg5)) := (head_v1 (W0 m ρ c)).trans rfl

/-! ## After the first launch -/

theorem W2_arg1 (c : Dev nD) : W2 m ρ c (Proc.devRef .tc main_arg1) = m ((c : Thread nD τ).loc main_arg1) :=
  ((W2_arr m ρ c 1).trans (((dat0 (V1 m ρ) c).arrAt_in 1 rfl _).trans (A_eq0 (V1 m ρ) c 1))).trans (W1_arg1 m ρ c)
theorem W2_arg2 (c : Dev nD) : W2 m ρ c (Proc.devRef .tc main_arg2) = m ((c : Thread nD τ).loc main_arg2) :=
  (W2_of_ne m ρ c main_arg2 (by decide)).trans (W1_arg2 m ρ c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg6 (c : Dev nD) : W2 m ρ c (Proc.devRef .tc main_arg6) = m ((c : Thread nD τ).loc main_arg6) :=
  (W2_of_ne m ρ c main_arg6 (by decide)).trans (W1_arg6 m ρ c)
theorem W2_arg7 (c : Dev nD) : W2 m ρ c (Proc.devRef .tc main_arg7) = m ((c : Thread nD τ).loc main_arg7) :=
  (W2_of_ne m ρ c main_arg7 (by decide)).trans (W1_arg7 m ρ c)
theorem W2_cst (c : Dev nD) : W2 m ρ c (Proc.devRef .tc main_cst) = coefK :=
  (W2_of_ne m ρ c main_cst (by decide)).trans (W1_cst m ρ c)
theorem W2_v1 (c : Dev nD) : W2 m ρ c (Proc.devRef .tc main_v1) = etot (m ((c : Thread nD τ).loc main_arg5)) :=
  (W2_of_ne m ρ c main_v1 (by decide)).trans (W1_v1 m ρ c)

/-- The first launch leaves the per-edge virial of the launch memory's `rij`, `fij`. -/
theorem W2_v2 (c : Dev nD) : W2 m ρ c (Proc.devRef .tc main_v2)
    = Cert.Spec.virial (m ((c : Thread nD τ).loc main_arg0)) (m ((c : Thread nD τ).loc main_arg1)) :=
  (W2_arr m ρ c 2).trans ((Cert.KernelIdeal.KV.final0 (V1 m ρ) c).trans
    (congrArg₂ Cert.Spec.virial (W1_arg0 m ρ c) (W1_arg1 m ρ c)))

/-! ## After the second launch -/

theorem W3_v2 (c : Dev nD) : W3 m ρ c (Proc.devRef .tc main_v2)
    = Cert.Spec.virial (m ((c : Thread nD τ).loc main_arg0)) (m ((c : Thread nD τ).loc main_arg1)) :=
  (W3_of_ne m ρ c main_v2 (by decide)).trans (W2_v2 m ρ c)
theorem W3_arg1 (c : Dev nD) : W3 m ρ c (Proc.devRef .tc main_arg1) = m ((c : Thread nD τ).loc main_arg1) :=
  (W3_of_ne m ρ c main_arg1 (by decide)).trans (W2_arg1 m ρ c)
theorem W3_arg4 (c : Dev nD) : W3 m ρ c (Proc.devRef .tc main_arg4) = m ((c : Thread nD τ).loc main_arg4) :=
  (W3_of_ne m ρ c main_arg4 (by decide)).trans (W2_arg4 m ρ c)
theorem W3_arg6 (c : Dev nD) : W3 m ρ c (Proc.devRef .tc main_arg6) = m ((c : Thread nD τ).loc main_arg6) :=
  (W3_of_ne m ρ c main_arg6 (by decide)).trans (W2_arg6 m ρ c)
theorem W3_arg7 (c : Dev nD) : W3 m ρ c (Proc.devRef .tc main_arg7) = m ((c : Thread nD τ).loc main_arg7) :=
  (W3_of_ne m ρ c main_arg7 (by decide)).trans (W2_arg7 m ρ c)
theorem W3_v1 (c : Dev nD) : W3 m ρ c (Proc.devRef .tc main_v1) = etot (m ((c : Thread nD τ).loc main_arg5)) :=
  (W3_of_ne m ρ c main_v1 (by decide)).trans (W2_v1 m ρ c)

/-- The second launch's first result: `aniso` times the coefficient table. -/
theorem W3_v3_0 (c : Dev nD) : W3 m ρ c (Proc.devRef .tc main_v3_0)
    = Cert.Spec.andev (m ((c : Thread nD τ).loc main_arg3)) coefK :=
  (W3_arr m ρ c 3).trans ((Cert.KernelIdeal.KV1.final3 (V2 m ρ) c).trans
    (congrArg₂ Cert.Spec.andev (W2_arg3 m ρ c) (W2_cst m ρ c)))

/-- The second launch's second result. -/
theorem W3_v3_1 (c : Dev nD) : W3 m ρ c (Proc.devRef .tc main_v3_1) = Cert.Spec.dev (m ((c : Thread nD τ).loc main_arg2)) :=
  (W3_arr m ρ c 4).trans ((Cert.KernelIdeal.KV1.final4 (V2 m ρ) c).trans (congrArg Cert.Spec.dev (W2_arg2 m ρ c)))

/-! ## The results -/

theorem res_v1 (c : Dev nD) : W4 m ρ c (Proc.devRef .tc main_v1) = etot (m ((c : Thread nD τ).loc main_arg5)) :=
  (tail_v1 (W3 m ρ c)).trans (W3_v1 m ρ c)

theorem res_v14 (c : Dev nD) : W4 m ρ c (Proc.devRef .tc main_v14)
    = force (m ((c : Thread nD τ).loc main_arg1)) (m ((c : Thread nD τ).loc main_arg6)) :=
  (tail_v14 (W3 m ρ c)).trans (congrArg₂ force (W3_arg1 m ρ c) (W3_arg6 m ρ c))

theorem res_v26 (c : Dev nD) : W4 m ρ c (Proc.devRef .tc main_v26)
    = stress (m ((c : Thread nD τ).loc main_arg4)) (m ((c : Thread nD τ).loc main_arg6)) (m ((c : Thread nD τ).loc main_arg7))
        (Cert.Spec.virial (m ((c : Thread nD τ).loc main_arg0)) (m ((c : Thread nD τ).loc main_arg1))) := by
  refine (tail_v26 (W3 m ρ c)).trans ?_
  rw [W3_arg4, W3_arg6, W3_arg7, W3_v2]

theorem res_v29 (c : Dev nD) : W4 m ρ c (Proc.devRef .tc main_v29)
    = segsum (m ((c : Thread nD τ).loc main_arg7)) (Cert.Spec.andev (m ((c : Thread nD τ).loc main_arg3)) coefK) := by
  refine (tail_v29 (W3 m ρ c)).trans ?_
  rw [W3_arg7, W3_v3_0]

theorem res_v32 (c : Dev nD) : W4 m ρ c (Proc.devRef .tc main_v32)
    = segsum (m ((c : Thread nD τ).loc main_arg7)) (Cert.Spec.dev (m ((c : Thread nD τ).loc main_arg2))) := by
  refine (tail_v32 (W3 m ρ c)).trans ?_
  rw [W3_arg7, W3_v3_1]

/-- The idealized kernel's run: every weakly fair execution terminates, each result at its term of the arguments, the
    arguments unchanged. -/
theorem run : θ_run defs (onTc (τ := τ) (main (F := Ideal))) ⟨m, fun _ => 0, ρ⟩ fun r => ∀ c : Dev nD,
      r.2.mem ((c.tc : Thread nD τ).loc main_v1) = etot (m ((c.tc : Thread nD τ).loc main_arg5))
      ∧ r.2.mem ((c.tc : Thread nD τ).loc main_v14) = force (m ((c.tc : Thread nD τ).loc main_arg1)) (m ((c.tc : Thread nD τ).loc main_arg6))
      ∧ r.2.mem ((c.tc : Thread nD τ).loc main_v26) = stress (m ((c.tc : Thread nD τ).loc main_arg4)) (m ((c.tc : Thread nD τ).loc main_arg6)) (m ((c.tc : Thread nD τ).loc main_arg7))
          (Cert.Spec.virial (m ((c.tc : Thread nD τ).loc main_arg0)) (m ((c.tc : Thread nD τ).loc main_arg1)))
      ∧ r.2.mem ((c.tc : Thread nD τ).loc main_v29) = segsum (m ((c.tc : Thread nD τ).loc main_arg7)) (Cert.Spec.andev (m ((c.tc : Thread nD τ).loc main_arg3)) coefK)
      ∧ r.2.mem ((c.tc : Thread nD τ).loc main_v32) = segsum (m ((c.tc : Thread nD τ).loc main_arg7)) (Cert.Spec.dev (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c =>
    ⟨(h c main_v1 (by decide)).trans (res_v1 m ρ c),
     (h c main_v14 (by decide)).trans (res_v14 m ρ c),
     (h c main_v26 (by decide)).trans (res_v26 m ρ c),
     (h c main_v29 (by decide)).trans (res_v29 m ρ c),
     (h c main_v32 (by decide)).trans (res_v32 m ρ c),
     (h c main_arg0 (by decide)).trans (W4_main_arg0 m ρ c),
     (h c main_arg1 (by decide)).trans (W4_main_arg1 m ρ c),
     (h c main_arg2 (by decide)).trans (W4_main_arg2 m ρ c),
     (h c main_arg3 (by decide)).trans (W4_main_arg3 m ρ c),
     (h c main_arg4 (by decide)).trans (W4_main_arg4 m ρ c),
     (h c main_arg5 (by decide)).trans (W4_main_arg5 m ρ c),
     (h c main_arg6 (by decide)).trans (W4_main_arg6 m ρ c),
     (h c main_arg7 (by decide)).trans (W4_main_arg7 m ρ c)⟩)
    (Cert.KernelIdeal.KV.run_all m ρ)

end Cert.KernelIdeal.KV2

end
-- ==== Proof.RefRun.lean ====
/-
  The reference program's run.  Its 64 host operations, in order, as one list; the program is the straight line of that
  list, so every weakly fair execution terminates with each buffer holding the operations' composed value of the argument
  arrays.  Read at the five result buffers, the composed values are the terms of `RefTerms`: the total energy, the forces,
  the stress, and the two batch sums; the eight arguments are unchanged.
-/
import proofs.«168080_j18382460027059_2_alg».proof.Proof.RefTerms
import Idealize.ShloMosaic.Lib.StableHlo.Run

noncomputable section

namespace Cert.ReferenceIdeal.RefRun

open Cert.ReferenceIdeal Idealize.ShloMosaic Idealize.ShloMosaic.TcCoe Idealize.SL.Sem Idealize.ShloMosaic.StableHlo
open Cert.ReferenceIdeal.Facts₀

variable {F : FTy → Type} [FloatOps F]

/-- The first 60 operations of the reference, in order. -/
abbrev ops0 : List (HloOp τ sig (Elt F)) :=
  [ nullary main_cst (fun i => FloatOps.ofBits .f32 (lit0 (S6x5.rowMajor i))),
    reshape main_arg5 main_v0 rfl shapeCasts_S32x1_S32,
    nullary main_cst_0 (constant S_ .f32 0x00000000#32),
    binary main_v0 main_cst_0 main_v1 ((fun x v => Host.reduceAdd x v reducesTo_S32_S_d0 h_S_) : (⟨S32, .f32⟩ : BufTy).Contents (Elt F) → (⟨S_, .f32⟩ : BufTy).Contents (Elt F) → (⟨S_, .f32⟩ : BufTy).Contents (Elt F)),
    unary main_arg6 main_v2 ((extractStridedSlice S1x5000000 ![0, 0] · slices_S2x5000000_S1x5000000_0_0) : (⟨S2x5000000, .i32⟩ : BufTy).Contents (Elt F) → (⟨S1x5000000, .i32⟩ : BufTy).Contents (Elt F)),
    reshape main_v2 main_v3 rfl shapeCasts_S1x5000000_S5000000,
    nullary main_cst_1 (constant S_ .f32 0x00000000#32),
    unary main_cst_1 main_v4 (broadcastInDim S200000x3 ![] bcast_S_S200000x3 : (⟨S_, .f32⟩ : BufTy).Contents (Elt F) → (⟨S200000x3, .f32⟩ : BufTy).Contents (Elt F)),
    unary main_v3 main_v5 (broadcastInDim S5000000x1 ![0] bcast_S5000000_S5000000x1_0 : (⟨S5000000, .i32⟩ : BufTy).Contents (Elt F) → (⟨S5000000x1, .i32⟩ : BufTy).Contents (Elt F)),
    ternary main_v4 main_v5 main_arg1 main_v6 ((fun x i u => Host.scatterAdd scatter_S200000x3_S5000000x1_S5000000x3_1_0_0_1 x i u) : (⟨S200000x3, .f32⟩ : BufTy).Contents (Elt F) → (⟨S5000000x1, .i32⟩ : BufTy).Contents (Elt F) → (⟨S5000000x3, .f32⟩ : BufTy).Contents (Elt F) → (⟨S200000x3, .f32⟩ : BufTy).Contents (Elt F)),
    unary main_arg6 main_v7 ((extractStridedSlice S1x5000000 ![1, 0] · slices_S2x5000000_S1x5000000_1_0) : (⟨S2x5000000, .i32⟩ : BufTy).Contents (Elt F) → (⟨S1x5000000, .i32⟩ : BufTy).Contents (Elt F)),
    reshape main_v7 main_v8 rfl shapeCasts_S1x5000000_S5000000,
    nullary main_cst_2 (constant S_ .f32 0x00000000#32),
    unary main_cst_2 main_v9 (broadcastInDim S200000x3 ![] bcast_S_S200000x3 : (⟨S_, .f32⟩ : BufTy).Contents (Elt F) → (⟨S200000x3, .f32⟩ : BufTy).Contents (Elt F)),
    unary main_v8 main_v10 (broadcastInDim S5000000x1 ![0] bcast_S5000000_S5000000x1_0 : (⟨S5000000, .i32⟩ : BufTy).Contents (Elt F) → (⟨S5000000x1, .i32⟩ : BufTy).Contents (Elt F)),
    ternary main_v9 main_v10 main_arg1 main_v11 ((fun x i u => Host.scatterAdd scatter_S200000x3_S5000000x1_S5000000x3_1_0_0_1 x i u) : (⟨S200000x3, .f32⟩ : BufTy).Contents (Elt F) → (⟨S5000000x1, .i32⟩ : BufTy).Contents (Elt F) → (⟨S5000000x3, .f32⟩ : BufTy).Contents (Elt F) → (⟨S200000x3, .f32⟩ : BufTy).Contents (Elt F)),
    binary main_v6 main_v11 main_v12 (subf : (⟨S200000x3, .f32⟩ : BufTy).Contents (Elt F) → (⟨S200000x3, .f32⟩ : BufTy).Contents (Elt F) → (⟨S200000x3, .f32⟩ : BufTy).Contents (Elt F)),
    binary main_arg0 main_arg1 main_v13 (mulf : (⟨S5000000x3, .f32⟩ : BufTy).Contents (Elt F) → (⟨S5000000x3, .f32⟩ : BufTy).Contents (Elt F) → (⟨S5000000x3, .f32⟩ : BufTy).Contents (Elt F)),
    unary main_arg0 main_v14 ((extractStridedSlice S5000000x1 ![0, 0] · slices_S5000000x3_S5000000x1_0_0) : (⟨S5000000x3, .f32⟩ : BufTy).Contents (Elt F) → (⟨S5000000x1, .f32⟩ : BufTy).Contents (Elt F)),
    reshape main_v14 main_v15 rfl shapeCasts_S5000000x1_S5000000,
    unary main_arg1 main_v16 ((extractStridedSlice S5000000x1 ![0, 1] · slices_S5000000x3_S5000000x1_0_1) : (⟨S5000000x3, .f32⟩ : BufTy).Contents (Elt F) → (⟨S5000000x1, .f32⟩ : BufTy).Contents (Elt F)),
    reshape main_v16 main_v17 rfl shapeCasts_S5000000x1_S5000000,
    binary main_v15 main_v17 main_v18 (mulf : (⟨S5000000, .f32⟩ : BufTy).Contents (Elt F) → (⟨S5000000, .f32⟩ : BufTy).Contents (Elt F) → (⟨S5000000, .f32⟩ : BufTy).Contents (Elt F)),
    unary main_v18 main_v19 (broadcastInDim S5000000x1 ![0] bcast_S5000000_S5000000x1_0 : (⟨S5000000, .f32⟩ : BufTy).Contents (Elt F) → (⟨S5000000x1, .f32⟩ : BufTy).Contents (Elt F)),
    unary main_arg0 main_v20 ((extractStridedSlice S5000000x1 ![0, 1] · slices_S5000000x3_S5000000x1_0_1) : (⟨S5000000x3, .f32⟩ : BufTy).Contents (Elt F) → (⟨S5000000x1, .f32⟩ : BufTy).Contents (Elt F)),
    reshape main_v20 main_v21 rfl shapeCasts_S5000000x1_S5000000,
    unary main_arg1 main_v22 ((extractStridedSlice S5000000x1 ![0, 2] · slices_S5000000x3_S5000000x1_0_2) : (⟨S5000000x3, .f32⟩ : BufTy).Contents (Elt F) → (⟨S5000000x1, .f32⟩ : BufTy).Contents (Elt F)),
    reshape main_v22 main_v23 rfl shapeCasts_S5000000x1_S5000000,
    binary main_v21 main_v23 main_v24 (mulf : (⟨S5000000, .f32⟩ : BufTy).Contents (Elt F) → (⟨S5000000, .f32⟩ : BufTy).Contents (Elt F) → (⟨S5000000, .f32⟩ : BufTy).Contents (Elt F)),
    unary main_v24 main_v25 (broadcastInDim S5000000x1 ![0] bcast_S5000000_S5000000x1_0 : (⟨S5000000, .f32⟩ : BufTy).Contents (Elt F) → (⟨S5000000x1, .f32⟩ : BufTy).Contents (Elt F)),
    unary main_arg0 main_v26 ((extractStridedSlice S5000000x1 ![0, 2] · slices_S5000000x3_S5000000x1_0_2) : (⟨S5000000x3, .f32⟩ : BufTy).Contents (Elt F) → (⟨S5000000x1, .f32⟩ : BufTy).Contents (Elt F)),
    reshape main_v26 main_v27 rfl shapeCasts_S5000000x1_S5000000,
    unary main_arg1 main_v28 ((extractStridedSlice S5000000x1 ![0, 0] · slices_S5000000x3_S5000000x1_0_0) : (⟨S5000000x3, .f32⟩ : BufTy).Contents (Elt F) → (⟨S5000000x1, .f32⟩ : BufTy).Contents (Elt F)),
    reshape main_v28 main_v29 rfl shapeCasts_S5000000x1_S5000000,
    binary main_v27 main_v29 main_v30 (mulf : (⟨S5000000, .f32⟩ : BufTy).Contents (Elt F) → (⟨S5000000, .f32⟩ : BufTy).Contents (Elt F) → (⟨S5000000, .f32⟩ : BufTy).Contents (Elt F)),
    unary main_v30 main_v31 (broadcastInDim S5000000x1 ![0] bcast_S5000000_S5000000x1_0 : (⟨S5000000, .f32⟩ : BufTy).Contents (Elt F) → (⟨S5000000x1, .f32⟩ : BufTy).Contents (Elt F)),
    nary ![main_v13, main_v19, main_v25, main_v31] main_v32 (fun u => concatenate S5000000x6 1 [⟨S5000000x3, u 0⟩, ⟨S5000000x1, u 1⟩, ⟨S5000000x1, u 2⟩, ⟨S5000000x1, u 3⟩] concatenates_S5000000x3_S5000000x1_S5000000x1_S5000000x1_S5000000x6_d1),
    unary main_arg6 main_v33 ((extractStridedSlice S1x5000000 ![1, 0] · slices_S2x5000000_S1x5000000_1_0) : (⟨S2x5000000, .i32⟩ : BufTy).Contents (Elt F) → (⟨S1x5000000, .i32⟩ : BufTy).Contents (Elt F)),
    reshape main_v33 main_v34 rfl shapeCasts_S1x5000000_S5000000,
    nullary main_cst_3 (constant S_ .f32 0x00000000#32),
    unary main_cst_3 main_v35 (broadcastInDim S200000x6 ![] bcast_S_S200000x6 : (⟨S_, .f32⟩ : BufTy).Contents (Elt F) → (⟨S200000x6, .f32⟩ : BufTy).Contents (Elt F)),
    unary main_v34 main_v36 (broadcastInDim S5000000x1 ![0] bcast_S5000000_S5000000x1_0 : (⟨S5000000, .i32⟩ : BufTy).Contents (Elt F) → (⟨S5000000x1, .i32⟩ : BufTy).Contents (Elt F)),
    ternary main_v35 main_v36 main_v32 main_v37 ((fun x i u => Host.scatterAdd scatter_S200000x6_S5000000x1_S5000000x6_1_0_0_1 x i u) : (⟨S200000x6, .f32⟩ : BufTy).Contents (Elt F) → (⟨S5000000x1, .i32⟩ : BufTy).Contents (Elt F) → (⟨S5000000x6, .f32⟩ : BufTy).Contents (Elt F) → (⟨S200000x6, .f32⟩ : BufTy).Contents (Elt F)),
    nullary main_cst_4 (constant S_ .f32 0x00000000#32),
    unary main_cst_4 main_v38 (broadcastInDim S32x6 ![] bcast_S_S32x6 : (⟨S_, .f32⟩ : BufTy).Contents (Elt F) → (⟨S32x6, .f32⟩ : BufTy).Contents (Elt F)),
    unary main_arg7 main_v39 (broadcastInDim S200000x1 ![0] bcast_S200000_S200000x1_0 : (⟨S200000, .i32⟩ : BufTy).Contents (Elt F) → (⟨S200000x1, .i32⟩ : BufTy).Contents (Elt F)),
    ternary main_v38 main_v39 main_v37 main_v40 ((fun x i u => Host.scatterAdd scatter_S32x6_S200000x1_S200000x6_1_0_0_1 x i u) : (⟨S32x6, .f32⟩ : BufTy).Contents (Elt F) → (⟨S200000x1, .i32⟩ : BufTy).Contents (Elt F) → (⟨S200000x6, .f32⟩ : BufTy).Contents (Elt F) → (⟨S32x6, .f32⟩ : BufTy).Contents (Elt F)),
    unary main_v40 main_v41 (Host.negf : (⟨S32x6, .f32⟩ : BufTy).Contents (Elt F) → (⟨S32x6, .f32⟩ : BufTy).Contents (Elt F)),
    unary main_arg4 main_v42 (broadcastInDim S32x1 ![0] bcast_S32_S32x1_0 : (⟨S32, .f32⟩ : BufTy).Contents (Elt F) → (⟨S32x1, .f32⟩ : BufTy).Contents (Elt F)),
    unary main_v42 main_v43 (broadcastInDim S32x6 ![0, 1] bcast_S32x1_S32x6_0_1 : (⟨S32x1, .f32⟩ : BufTy).Contents (Elt F) → (⟨S32x6, .f32⟩ : BufTy).Contents (Elt F)),
    binary main_v41 main_v43 main_v44 (Host.divf : (⟨S32x6, .f32⟩ : BufTy).Contents (Elt F) → (⟨S32x6, .f32⟩ : BufTy).Contents (Elt F) → (⟨S32x6, .f32⟩ : BufTy).Contents (Elt F)),
    unary main_cst main_v45 ((transpose S5x6 [1, 0] · transposes_S6x5_S5x6_1_0) : (⟨S6x5, .f32⟩ : BufTy).Contents (Elt F) → (⟨S5x6, .f32⟩ : BufTy).Contents (Elt F)),
    binary main_arg3 main_v45 main_v46 ((fun l r => Host.dotGeneral dot_S200000x5_S5x6_S200000x6_1_0_0_1_n_n none l r) : (⟨S200000x5, .f32⟩ : BufTy).Contents (Elt F) → (⟨S5x6, .f32⟩ : BufTy).Contents (Elt F) → (⟨S200000x6, .f32⟩ : BufTy).Contents (Elt F)),
    nullary main_cst_5 (constant S_ .f32 0x00000000#32),
    unary main_cst_5 main_v47 (broadcastInDim S200000x3 ![] bcast_S_S200000x3 : (⟨S_, .f32⟩ : BufTy).Contents (Elt F) → (⟨S200000x3, .f32⟩ : BufTy).Contents (Elt F)),
    nary ![main_arg2, main_arg2, main_arg2, main_v47] main_v48 (fun u => concatenate S200000x6 1 [⟨S200000x1, u 0⟩, ⟨S200000x1, u 1⟩, ⟨S200000x1, u 2⟩, ⟨S200000x3, u 3⟩] concatenates_S200000x1_S200000x1_S200000x1_S200000x3_S200000x6_d1),
    nullary main_cst_6 (constant S_ .f32 0x00000000#32),
    unary main_cst_6 main_v49 (broadcastInDim S32x6 ![] bcast_S_S32x6 : (⟨S_, .f32⟩ : BufTy).Contents (Elt F) → (⟨S32x6, .f32⟩ : BufTy).Contents (Elt F)),
    unary main_arg7 main_v50 (broadcastInDim S200000x1 ![0] bcast_S200000_S200000x1_0 : (⟨S200000, .i32⟩ : BufTy).Contents (Elt F) → (⟨S200000x1, .i32⟩ : BufTy).Contents (Elt F)),
    ternary main_v49 main_v50 main_v46 main_v51 ((fun x i u => Host.scatterAdd scatter_S32x6_S200000x1_S200000x6_1_0_0_1 x i u) : (⟨S32x6, .f32⟩ : BufTy).Contents (Elt F) → (⟨S200000x1, .i32⟩ : BufTy).Contents (Elt F) → (⟨S200000x6, .f32⟩ : BufTy).Contents (Elt F) → (⟨S32x6, .f32⟩ : BufTy).Contents (Elt F)) ]

/-- The last 4 operations of the reference, in order. -/
abbrev ops1 : List (HloOp τ sig (Elt F)) :=
  [ nullary main_cst_7 (constant S_ .f32 0x00000000#32),
    unary main_cst_7 main_v52 (broadcastInDim S32x6 ![] bcast_S_S32x6 : (⟨S_, .f32⟩ : BufTy).Contents (Elt F) → (⟨S32x6, .f32⟩ : BufTy).Contents (Elt F)),
    unary main_arg7 main_v53 (broadcastInDim S200000x1 ![0] bcast_S200000_S200000x1_0 : (⟨S200000, .i32⟩ : BufTy).Contents (Elt F) → (⟨S200000x1, .i32⟩ : BufTy).Contents (Elt F)),
    ternary main_v52 main_v53 main_v48 main_v54 ((fun x i u => Host.scatterAdd scatter_S32x6_S200000x1_S200000x6_1_0_0_1 x i u) : (⟨S32x6, .f32⟩ : BufTy).Contents (Elt F) → (⟨S200000x1, .i32⟩ : BufTy).Contents (Elt F) → (⟨S200000x6, .f32⟩ : BufTy).Contents (Elt F) → (⟨S32x6, .f32⟩ : BufTy).Contents (Elt F)) ]

/-- All 64 operations of the reference, in order. -/
abbrev ops : List (HloOp τ sig (Elt F)) := ops0 ++ ops1

set_option maxRecDepth 100000 in
set_option maxHeartbeats 4000000 in
theorem main_part0_eq (c : Dev nD) : main_part0 (F := F) c = seq ops0 := rfl
theorem main_part1_eq (c : Dev nD) : main_part1 (F := F) c = seq ops1 := rfl
theorem main_eq (c : Dev nD) : main (F := F) c = seq ops := by
  simp only [ops, seq_append, ← main_part0_eq c, ← main_part1_eq c]; rfl

theorem scopedRefs_eq : (Finset.univ.filter fun b : Ref sig .tc => b.isScoped) = ∅ := by decide
theorem scopedSems_eq : (Finset.univ.filter fun sm : SemLoc sig => sm.isScoped .tc) = ∅ := by decide

theorem ops0_sub : (ops0 : List (HloOp τ sig (Elt F))).Forall fun op => op.bufs ⊆ tcRefs τ sig :=
  ⟨nullary_bufs_sub .., reshape_bufs_sub .., nullary_bufs_sub .., binary_bufs_sub .., unary_bufs_sub .., reshape_bufs_sub .., nullary_bufs_sub .., unary_bufs_sub .., unary_bufs_sub .., ternary_bufs_sub .., unary_bufs_sub .., reshape_bufs_sub .., nullary_bufs_sub .., unary_bufs_sub .., unary_bufs_sub .., ternary_bufs_sub .., binary_bufs_sub .., binary_bufs_sub .., unary_bufs_sub .., reshape_bufs_sub .., unary_bufs_sub .., reshape_bufs_sub .., binary_bufs_sub .., unary_bufs_sub .., unary_bufs_sub .., reshape_bufs_sub .., unary_bufs_sub .., reshape_bufs_sub .., binary_bufs_sub .., unary_bufs_sub .., unary_bufs_sub .., reshape_bufs_sub .., unary_bufs_sub .., reshape_bufs_sub .., binary_bufs_sub .., unary_bufs_sub .., nary_bufs_sub .., unary_bufs_sub .., reshape_bufs_sub .., nullary_bufs_sub .., unary_bufs_sub .., unary_bufs_sub .., ternary_bufs_sub .., nullary_bufs_sub .., unary_bufs_sub .., unary_bufs_sub .., ternary_bufs_sub .., unary_bufs_sub .., unary_bufs_sub .., unary_bufs_sub .., binary_bufs_sub .., unary_bufs_sub .., binary_bufs_sub .., nullary_bufs_sub .., unary_bufs_sub .., nary_bufs_sub .., nullary_bufs_sub .., unary_bufs_sub .., unary_bufs_sub .., ternary_bufs_sub ..⟩
theorem ops1_sub : (ops1 : List (HloOp τ sig (Elt F))).Forall fun op => op.bufs ⊆ tcRefs τ sig :=
  ⟨nullary_bufs_sub .., unary_bufs_sub .., unary_bufs_sub .., ternary_bufs_sub ..⟩
theorem ops_sub : (ops : List (HloOp τ sig (Elt F))).Forall fun op => op.bufs ⊆ tcRefs τ sig :=
  List.forall_iff_forall_mem.mpr fun op h => by
    simp only [ops, List.mem_append] at h
    rcases h with h | h
    · exact (List.forall_iff_forall_mem.mp ops0_sub) op h
    · exact (List.forall_iff_forall_mem.mp ops1_sub) op h

/-- The contents after two lines run one after the other: the second line's, from the first's. -/
private theorem after_two : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_two l₁ l₂]

/-- The contents after all 64 operations: the last 4's, from the first 60's. -/
theorem after_ops (V : Valuation τ sig (Elt F)) : after ops V = after ops1 (after ops0 V) := after_two ops0 ops1 V

/-! The five results and the eight arguments after the 64 operations, from any contents `V`. -/

set_option maxHeartbeats 4000000 in
theorem res_v1 (V : Valuation τ sig (Elt F)) :
    after ops V (Proc.devRef .tc main_v1) = etot (V (Proc.devRef .tc main_arg5)) := by
  rw [after_ops]; after_results_simp; rfl

set_option maxHeartbeats 4000000 in
theorem res_v12 (V : Valuation τ sig (Elt F)) :
    after ops V (Proc.devRef .tc main_v12) = force (V (Proc.devRef .tc main_arg1)) (V (Proc.devRef .tc main_arg6)) := by
  rw [after_ops]; after_results_simp; rfl

set_option maxHeartbeats 4000000 in
theorem res_v44 (V : Valuation τ sig (Elt F)) :
    after ops V (Proc.devRef .tc main_v44)
      = stress (V (Proc.devRef .tc main_arg4)) (V (Proc.devRef .tc main_arg6)) (V (Proc.devRef .tc main_arg7)) (virialT (V (Proc.devRef .tc main_arg0)) (V (Proc.devRef .tc main_arg1))) := by
  rw [after_ops]; after_results_simp; rfl

set_option maxHeartbeats 4000000 in
theorem res_v51 (V : Valuation τ sig (Elt F)) :
    after ops V (Proc.devRef .tc main_v51) = segsum (V (Proc.devRef .tc main_arg7)) (andevT (V (Proc.devRef .tc main_arg3))) := by
  rw [after_ops]; after_results_simp; rfl

set_option maxHeartbeats 4000000 in
theorem res_v54 (V : Valuation τ sig (Elt F)) :
    after ops V (Proc.devRef .tc main_v54) = segsum (V (Proc.devRef .tc main_arg7)) (devT (V (Proc.devRef .tc main_arg2))) := by
  rw [after_ops]; after_results_simp; rfl

set_option maxHeartbeats 4000000 in
theorem res_arg0 (V : Valuation τ sig (Elt F)) :
    after ops V (Proc.devRef .tc main_arg0) = V (Proc.devRef .tc main_arg0) := by
  rw [after_ops]; after_results_simp

set_option maxHeartbeats 4000000 in
theorem res_arg1 (V : Valuation τ sig (Elt F)) :
    after ops V (Proc.devRef .tc main_arg1) = V (Proc.devRef .tc main_arg1) := by
  rw [after_ops]; after_results_simp

set_option maxHeartbeats 4000000 in
theorem res_arg2 (V : Valuation τ sig (Elt F)) :
    after ops V (Proc.devRef .tc main_arg2) = V (Proc.devRef .tc main_arg2) := by
  rw [after_ops]; after_results_simp

set_option maxHeartbeats 4000000 in
theorem res_arg3 (V : Valuation τ sig (Elt F)) :
    after ops V (Proc.devRef .tc main_arg3) = V (Proc.devRef .tc main_arg3) := by
  rw [after_ops]; after_results_simp

set_option maxHeartbeats 4000000 in
theorem res_arg4 (V : Valuation τ sig (Elt F)) :
    after ops V (Proc.devRef .tc main_arg4) = V (Proc.devRef .tc main_arg4) := by
  rw [after_ops]; after_results_simp

set_option maxHeartbeats 4000000 in
theorem res_arg5 (V : Valuation τ sig (Elt F)) :
    after ops V (Proc.devRef .tc main_arg5) = V (Proc.devRef .tc main_arg5) := by
  rw [after_ops]; after_results_simp

set_option maxHeartbeats 4000000 in
theorem res_arg6 (V : Valuation τ sig (Elt F)) :
    after ops V (Proc.devRef .tc main_arg6) = V (Proc.devRef .tc main_arg6) := by
  rw [after_ops]; after_results_simp

set_option maxHeartbeats 4000000 in
theorem res_arg7 (V : Valuation τ sig (Elt F)) :
    after ops V (Proc.devRef .tc main_arg7) = V (Proc.devRef .tc main_arg7) := by
  rw [after_ops]; after_results_simp

/-- On the device, for any float values, from any memory with zero counters: every weakly fair execution of the
    reference terminates with its five results at the terms of `RefTerms` over the arguments' launch contents, and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = etot (m ((c.tc : Thread nD τ).loc main_arg5))
      ∧ r.2.mem ((c.tc : Thread nD τ).loc main_v12) = force (m ((c.tc : Thread nD τ).loc main_arg1)) (m ((c.tc : Thread nD τ).loc main_arg6))
      ∧ r.2.mem ((c.tc : Thread nD τ).loc main_v44) = stress (m ((c.tc : Thread nD τ).loc main_arg4)) (m ((c.tc : Thread nD τ).loc main_arg6)) (m ((c.tc : Thread nD τ).loc main_arg7)) (virialT (m ((c.tc : Thread nD τ).loc main_arg0)) (m ((c.tc : Thread nD τ).loc main_arg1)))
      ∧ r.2.mem ((c.tc : Thread nD τ).loc main_v51) = segsum (m ((c.tc : Thread nD τ).loc main_arg7)) (andevT (m ((c.tc : Thread nD τ).loc main_arg3)))
      ∧ r.2.mem ((c.tc : Thread nD τ).loc main_v54) = segsum (m ((c.tc : Thread nD τ).loc main_arg7)) (devT (m ((c.tc : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v1).trans (res_v1 _), (h c main_v12).trans (res_v12 _),
      (h c main_v44).trans (res_v44 _), (h c main_v51).trans (res_v51 _), (h c main_v54).trans (res_v54 _),
      (h c main_arg0).trans (res_arg0 _), (h c main_arg1).trans (res_arg1 _), (h c main_arg2).trans (res_arg2 _), (h c main_arg3).trans (res_arg3 _), (h c main_arg4).trans (res_arg4 _), (h c main_arg5).trans (res_arg5 _), (h c main_arg6).trans (res_arg6 _), (h c main_arg7).trans (res_arg7 _)⟩)
    (run_seq scopedRefs_eq scopedSems_eq defs main (fun _ => ops) main_eq (fun _ => ops_sub) m ρ)

end Cert.ReferenceIdeal.RefRun

end
-- ==== Proof.RefValues.lean ====
/-
  The reference's three per-row arrays read index by index: each equals the index-by-index function of the
  argument arrays stated in the specification.
-/
import proofs.«168080_j18382460027059_2_alg».proof.Proof.RefTerms
import proofs.«168080_j18382460027059_2_alg».proof.Proof.Spec
import proofs.«168080_j18382460027059_2_alg».proof.KernelIdeal
import Idealize.ShloMosaic.Lib.ValueIdx
import Idealize.ShloMosaic.Lib.Pipeline.Value
import Idealize.ShloMosaic.Lib.ValueLayout
import Idealize.ShloMosaic.PureOps.Ideal.Laws

noncomputable section

open scoped BigOperators

namespace Cert.ReferenceIdeal.RefValues

open Cert.ReferenceIdeal Cert.ReferenceIdeal.RefRun Idealize.ShloMosaic Idealize.ShloMosaic.ValueIdx
open Cert.ReferenceIdeal.Facts₀

/-- Column `c` of an edges x 3 array, flattened, read at edge `e`. -/
theorem col_apply (o : Fin 2 → Nat) (h : S5000000x3.Slices o S5000000x1) (a : FVec Ideal S5000000x3 .f32)
    (e : Fin 5000000) (c : Fin 3) (ho0 : o 0 = 0) (ho1 : o 1 = c.val) :
    col (F := Ideal) o h a (ix1 e) = a (ix2 e c) := by
  unfold col
  refine (shapeCast_apply _ _ (ix1 e) (ix2 e (0 : Fin 1)) ?_).trans ?_
  · rw [Shape.rowMajor_val_two, Shape.rowMajor_val_one]
    show e.val * 1 + 0 = e.val
    omega
  · refine extractStridedSlice_apply _ _ _ _ _ (fun ax => ?_)
    match ax with
    | ⟨0, _⟩ => show e.val = o 0 + e.val; omega
    | ⟨1, _⟩ => show c.val = o 1 + 0; omega

/-- A cross column read at edge `e`: the product of the two chosen coordinates. -/
theorem cross_apply (o p : Fin 2 → Nat) (ho : S5000000x3.Slices o S5000000x1) (hp : S5000000x3.Slices p S5000000x1)
    (a0 a1 : FVec Ideal S5000000x3 .f32) (e : Fin 5000000) (z : Fin 1) (c d : Fin 3)
    (ho0 : o 0 = 0) (ho1 : o 1 = c.val) (hp0 : p 0 = 0) (hp1 : p 1 = d.val) :
    cross (F := Ideal) o p ho hp a0 a1 (ix2 e z) = a0 (ix2 e c) * a1 (ix2 e d) := by
  unfold cross
  refine (broadcastInDim_apply _ _ _ (ix2 e z) (ix1 e) (fun ax => ?_)).trans ?_
  · match ax with
    | ⟨0, _⟩ => rfl
  · rw [mulf_apply, col_apply o ho a0 e c ho0 ho1, col_apply p hp a1 e d hp0 hp1]

/-- The reference's virial at a diagonal column `c < 3`: the elementwise product. -/
theorem virialT_diag (a0 a1 : FVec Ideal S5000000x3 .f32) (e : Fin 5000000) (c : Fin 3) (j : Fin 6) (hj : j.val = c.val) :
    virialT (F := Ideal) a0 a1 (ix2 e j) = a0 (ix2 e c) * a1 (ix2 e c) := by
  unfold virialT
  refine (concatenate_apply_piece _ _ _ (ix2 e j) 0 (by simp) S5000000x3 (mulf a0 a1) rfl rfl 0 rfl (ix2 e c)
    (fun b hb => ?_) ?_).trans ?_
  · match b with
    | ⟨0, _⟩ => rfl
    | ⟨1, _⟩ => exact absurd rfl hb
  · show 0 + c.val = j.val
    omega
  · rfl

/-- The reference's virial at column 3: `r 0 * f 1`. -/
theorem virialT_three (a0 a1 : FVec Ideal S5000000x3 .f32) (e : Fin 5000000) (j : Fin 6) (hj : j.val = 3) :
    virialT (F := Ideal) a0 a1 (ix2 e j) = a0 (ix2 e (0 : Fin 3)) * a1 (ix2 e (1 : Fin 3)) := by
  unfold virialT
  refine (concatenate_apply_piece _ _ _ (ix2 e j) 1 (by simp) S5000000x1 _ rfl rfl 3 rfl (ix2 e (0 : Fin 1))
    (fun b hb => ?_) ?_).trans ?_
  · match b with
    | ⟨0, _⟩ => rfl
    | ⟨1, _⟩ => exact absurd rfl hb
  · show 3 + 0 = j.val
    omega
  · exact cross_apply _ _ _ _ a0 a1 e 0 0 1 rfl rfl rfl rfl

/-- The reference's virial at column 4: `r 1 * f 2`. -/
theorem virialT_four (a0 a1 : FVec Ideal S5000000x3 .f32) (e : Fin 5000000) (j : Fin 6) (hj : j.val = 4) :
    virialT (F := Ideal) a0 a1 (ix2 e j) = a0 (ix2 e (1 : Fin 3)) * a1 (ix2 e (2 : Fin 3)) := by
  unfold virialT
  refine (concatenate_apply_piece _ _ _ (ix2 e j) 2 (by simp) S5000000x1 _ rfl rfl 4 rfl (ix2 e (0 : Fin 1))
    (fun b hb => ?_) ?_).trans ?_
  · match b with
    | ⟨0, _⟩ => rfl
    | ⟨1, _⟩ => exact absurd rfl hb
  · show 4 + 0 = j.val
    omega
  · exact cross_apply _ _ _ _ a0 a1 e 0 1 2 rfl rfl rfl rfl

/-- The reference's virial at column 5: `r 2 * f 0`. -/
theorem virialT_five (a0 a1 : FVec Ideal S5000000x3 .f32) (e : Fin 5000000) (j : Fin 6) (hj : j.val = 5) :
    virialT (F := Ideal) a0 a1 (ix2 e j) = a0 (ix2 e (2 : Fin 3)) * a1 (ix2 e (0 : Fin 3)) := by
  unfold virialT
  refine (concatenate_apply_piece _ _ _ (ix2 e j) 3 (by simp) S5000000x1 _ rfl rfl 5 rfl (ix2 e (0 : Fin 1))
    (fun b hb => ?_) ?_).trans ?_
  · match b with
    | ⟨0, _⟩ => rfl
    | ⟨1, _⟩ => exact absurd rfl hb
  · show 5 + 0 = j.val
    omega
  · exact cross_apply _ _ _ _ a0 a1 e 0 2 0 rfl rfl rfl rfl

/-- The reference's per-edge virial is the specification's. -/
theorem virialT_eq (a0 a1 : FVec Ideal S5000000x3 .f32) : virialT (F := Ideal) a0 a1 = Cert.Spec.virial a0 a1 := by
  funext i
  obtain ⟨e, j, rfl⟩ : ∃ (e : Fin 5000000) (j : Fin 6), i = ix2 e j := ⟨i 0, i 1, eq_ix2 i⟩
  rw [Cert.Spec.virial_ix]
  unfold Cert.Spec.virialAt
  by_cases h3 : j.val < 3
  · rw [dif_pos h3]
    exact virialT_diag a0 a1 e ⟨j.val, h3⟩ j rfl
  · rw [dif_neg h3]
    by_cases h : j.val = 3
    · rw [if_pos h]; exact virialT_three a0 a1 e j h
    · rw [if_neg h]
      by_cases h' : j.val = 4
      · rw [if_pos h']; exact virialT_four a0 a1 e j h'
      · rw [if_neg h']
        exact virialT_five a0 a1 e j (by have := j.isLt; omega)

/-- The all-zero array reads the zero word's value everywhere. -/
theorem zerosE3_apply (i : S200000x3.Idx) : zerosE3 (F := Ideal) i = Ideal.ofBits .f32 0x00000000#32 := by
  unfold zerosE3
  exact (broadcastInDim_apply _ _ _ i ix0 (fun a => a.elim0)).trans (constant_apply _ _)

/-- The reference's isotropic rows at one of the first three columns (`k` the column): the atom's `iso`. -/
theorem devT_low (a2 : FVec Ideal S200000x1 .f32) (n : Fin 200000) (j : Fin 6) (k : Nat) (hk : k < 3) (hj : j.val = k) :
    devT (F := Ideal) a2 (ix2 n j) = a2 (ix2 n (0 : Fin 1)) := by
  unfold devT
  have hidx : ∀ b : Fin 2, b ≠ 1 → ((ix2 n (0 : Fin 1) : S200000x1.Idx) b).val = ((ix2 n j : S200000x6.Idx) b).val := by
    intro b hb
    match b with
    | ⟨0, _⟩ => rfl
    | ⟨1, _⟩ => exact absurd rfl hb
  interval_cases k
  · exact concatenate_apply_piece _ _ _ (ix2 n j) 0 (by simp) S200000x1 a2 rfl rfl 0 rfl (ix2 n (0 : Fin 1)) hidx
      (by show 0 + 0 = j.val; omega)
  · exact concatenate_apply_piece _ _ _ (ix2 n j) 1 (by simp) S200000x1 a2 rfl rfl 1 rfl (ix2 n (0 : Fin 1)) hidx
      (by show 1 + 0 = j.val; omega)
  · exact concatenate_apply_piece _ _ _ (ix2 n j) 2 (by simp) S200000x1 a2 rfl rfl 2 rfl (ix2 n (0 : Fin 1)) hidx
      (by show 2 + 0 = j.val; omega)

/-- The reference's isotropic rows at one of the last three columns: zero. -/
theorem devT_high (a2 : FVec Ideal S200000x1 .f32) (n : Fin 200000) (j : Fin 6) (hj : ¬ j.val < 3) :
    devT (F := Ideal) a2 (ix2 n j) = Ideal.ofBits .f32 0x00000000#32 := by
  unfold devT
  have hlt : j.val - 3 < 3 := by have := j.isLt; omega
  refine (concatenate_apply_piece _ _ _ (ix2 n j) 3 (by simp) S200000x3 _ rfl rfl 3 rfl (ix2 n (⟨j.val - 3, hlt⟩ : Fin 3))
    (fun b hb => ?_) ?_).trans (zerosE3_apply _)
  · match b with
    | ⟨0, _⟩ => rfl
    | ⟨1, _⟩ => exact absurd rfl hb
  · show 3 + (j.val - 3) = j.val
    omega

/-- The reference's isotropic rows are the specification's. -/
theorem devT_eq (a2 : FVec Ideal S200000x1 .f32) : devT (F := Ideal) a2 = Cert.Spec.dev a2 := by
  funext i
  obtain ⟨n, j, rfl⟩ : ∃ (n : Fin 200000) (j : Fin 6), i = ix2 n j := ⟨i 0, i 1, eq_ix2 i⟩
  rw [Cert.Spec.dev_ix]
  by_cases h3 : j.val < 3
  · rw [if_pos h3]
    exact devT_low a2 n j j.val h3 rfl
  · rw [if_neg h3]
    exact devT_high a2 n j h3

end Cert.ReferenceIdeal.RefValues

end
-- ==== Proof.RefValues2.lean ====
/-
  The reference's coefficient table and its anisotropic rows read index by index.
-/
import proofs.«168080_j18382460027059_2_alg».proof.Proof.RefValues

noncomputable section

open scoped BigOperators

namespace Cert.ReferenceIdeal.RefValues

open Cert.ReferenceIdeal Cert.ReferenceIdeal.RefRun Idealize.ShloMosaic Idealize.ShloMosaic.ValueIdx
open Cert.ReferenceIdeal.Facts₀

/-- The reference's 6 x 5 table at (j, k) holds the word the kernel's 5 x 6 table holds at (k, j): the thirty
    entries compared one by one, as words. -/
theorem lit_agree : ∀ (k : Fin 5) (j : Fin 6) (h1 : j.val * 5 + k.val < 30) (h2 : k.val * 6 + j.val < 30),
    Cert.ReferenceIdeal.lit0 ⟨j.val * 5 + k.val, h1⟩ = Cert.KernelIdeal.lit0 ⟨k.val * 6 + j.val, h2⟩ := by
  decide

/-- The same with the two positions given as row-major positions of the transposed index pair. -/
theorem lit_agree_rowMajor (k : Fin 5) (j : Fin 6) :
    Cert.ReferenceIdeal.lit0 (S6x5.rowMajor (ix2 j k)) = Cert.KernelIdeal.lit0 (Cert.KernelIdeal.S5x6.rowMajor (ix2 k j)) := by
  have h1 : j.val * 5 + k.val < 30 := by have := j.isLt; have := k.isLt; omega
  have h2 : k.val * 6 + j.val < 30 := by have := j.isLt; have := k.isLt; omega
  have e1 : S6x5.rowMajor (ix2 j k) = (⟨j.val * 5 + k.val, h1⟩ : Fin 30) :=
    Fin.ext (by rw [Shape.rowMajor_val_two]; rfl)
  have e2 : Cert.KernelIdeal.S5x6.rowMajor (ix2 k j) = (⟨k.val * 6 + j.val, h2⟩ : Fin 30) :=
    Fin.ext (by rw [Shape.rowMajor_val_two]; rfl)
  rw [e1, e2]
  exact lit_agree k j h1 h2

/-- The reference's transposed coefficient table is the kernel's literal table. -/
theorem coefT_eq : coefT (F := Ideal)
    = (fun i => FloatOps.ofBits (F := Ideal) .f32 (Cert.KernelIdeal.lit0 (Cert.KernelIdeal.S5x6.rowMajor i)) :
        FVec Ideal Cert.KernelIdeal.S5x6 .f32) := by
  funext i
  obtain ⟨k, j, rfl⟩ : ∃ (k : Fin 5) (j : Fin 6), i = ix2 k j := ⟨i 0, i 1, eq_ix2 i⟩
  unfold coefT
  refine (transpose_apply _ _ _ (ix2 k j) (ix2 j k) (fun b => ?_)).trans ?_
  · match b with
    | ⟨0, _⟩ => rfl
    | ⟨1, _⟩ => rfl
  · exact congrArg (FloatOps.ofBits (F := Ideal) .f32) (lit_agree_rowMajor k j)

/-- The reference's anisotropic rows are the specification's: the host's one-axis contraction read at an index is
    the sum over the five shared coordinates. -/
theorem andevT_eq (a3 : FVec Ideal S200000x5 .f32) :
    andevT (F := Ideal) a3 = Cert.Spec.andev a3 (coefT (F := Ideal)) := by
  funext i
  obtain ⟨n, j, rfl⟩ : ∃ (n : Fin 200000) (j : Fin 6), i = ix2 n j := ⟨i 0, i 1, eq_ix2 i⟩
  rw [Cert.Spec.andev_ix]
  unfold andevT
  simp only [Host.dotGeneral]
  refine (Idealize.ShloMosaic.Ideal.dotGeneral_apply _ _ _ _ _ _).trans ?_
  have hr : dot_S200000x5_S5x6_S200000x6_1_0_0_1_n_n.contr.rank = 1 := rfl
  have hs : dot_S200000x5_S5x6_S200000x6_1_0_0_1_n_n.contr.size ⟨0, by omega⟩ = 5 := rfl
  rw [← Equiv.sum_comp (contrEquiv1 dot_S200000x5_S5x6_S200000x6_1_0_0_1_n_n 5 hr hs).symm]
  refine Finset.sum_congr rfl (fun k _ => ?_)
  have hl : dot_S200000x5_S5x6_S200000x6_1_0_0_1_n_n.lhsIdx (ix2 n j)
      ((contrEquiv1 dot_S200000x5_S5x6_S200000x6_1_0_0_1_n_n 5 hr hs).symm k) = ix2 n k := by
    funext a
    match a with
    | ⟨0, _⟩ => exact Fin.ext rfl
    | ⟨1, _⟩ =>
      exact Fin.ext ((DotDims.lhsIdx_val_of_single _ rfl _ _).trans
        (contrEquiv1_symm_val dot_S200000x5_S5x6_S200000x6_1_0_0_1_n_n 5 hr hs k))
  have hrr : dot_S200000x5_S5x6_S200000x6_1_0_0_1_n_n.rhsIdx (ix2 n j)
      ((contrEquiv1 dot_S200000x5_S5x6_S200000x6_1_0_0_1_n_n 5 hr hs).symm k) = ix2 k j := by
    funext a
    match a with
    | ⟨0, _⟩ =>
      exact Fin.ext ((DotDims.rhsIdx_val_of_single _ rfl _ _).trans
        (contrEquiv1_symm_val dot_S200000x5_S5x6_S200000x6_1_0_0_1_n_n 5 hr hs k))
    | ⟨1, _⟩ => exact Fin.ext rfl
  rw [hl, hrr]

end Cert.ReferenceIdeal.RefValues

end
-- ==== Proof.lean ====
/-
  The certificate's claim: the kernel, its idealization and the idealized reference each run to the end without a fault
  leaving their arguments unchanged; the idealization rewrote nothing; and over the extended reals the idealized kernel
  and the idealized reference, run from memories that agree on the arguments, end with the same five results.

  The mathematics.  Both programs compute the total energy (a sum over the batch), the forces (two segment sums of
  `fij` over the two rows of the edge list, subtracted), the stress (the per-edge virial summed into atoms, then into
  batches, negated and divided by the volume) and two batch sums of per-atom arrays, with the SAME chains of host
  operations; they differ only in how three per-row arrays are produced:
    * the per-edge virial — the kernel's first launch writes, block of 8000 edges by block, the elementwise product
      `rij * fij` into columns 0-2 and the three cyclic cross products into columns 3-5; the reference concatenates the
      same four pieces: both are `Cert.Spec.virial rij fij`, entry by entry;
    * the anisotropic rows — the kernel's second launch adds, starting from zero, the five products
      `aniso n k * K k j`; the reference contracts `aniso` with the transpose of its 6 x 5 table, whose entries are the
      kernel's 5 x 6 table's: adding zero changes nothing and addition of extended reals is associative, so both are the
      sum over the five shared coordinates, `Cert.Spec.andev aniso K`;
    * the isotropic rows — `iso` in columns 0-2 and zeros in columns 3-5 on both sides, `Cert.Spec.dev iso`.
  No step uses finiteness of the inputs: only `0 + x = x` and the sum over five terms in order.
-/
import proofs.«168080_j18382460027059_2_alg».proof.Defs
import proofs.«168080_j18382460027059_2_alg».proof.Proof.Gen.Kernel
import proofs.«168080_j18382460027059_2_alg».proof.Proof.Gen.Kernel.Frame
import proofs.«168080_j18382460027059_2_alg».proof.Proof.Gen.KernelIdeal
import proofs.«168080_j18382460027059_2_alg».proof.Proof.Gen.KernelIdeal.Frame
import proofs.«168080_j18382460027059_2_alg».proof.Proof.Gen.ReferenceIdeal
import proofs.«168080_j18382460027059_2_alg».proof.Proof.Gen.Pre_finite_inputs
import proofs.«168080_j18382460027059_2_alg».proof.Proof.KValues
import proofs.«168080_j18382460027059_2_alg».proof.Proof.RefRun
import proofs.«168080_j18382460027059_2_alg».proof.Proof.RefValues2
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run with its results dropped. -/
theorem frame_ri : Cert.frame_ReferenceIdeal := fun m ρ _ =>
  (θ_run Cert.ReferenceIdeal.defs _ _).mono (fun _ h c => (h c).2.2.2.2.2)
    (Cert.ReferenceIdeal.RefRun.run (F := Ideal) m ρ)

/-- The two runs side by side: each result of the kernel is the reference's chain of segment sums applied to the
    specification's array, and each of the reference's three per-row arrays is that array. -/
theorem algebraic : Cert.algebraic_KernelIdeal_ReferenceIdeal := by
  intro m ρ m' ρ' _ hagree
  refine ⟨_, _, _, _, _, Cert.KernelIdeal.KV2.run m ρ, ?_⟩
  refine (θ_run Cert.ReferenceIdeal.defs _ _).mono (fun r h c => ?_) (Cert.ReferenceIdeal.RefRun.run (F := Ideal) m' ρ')
  obtain ⟨h1, h2, h3, h4, h5, hargs⟩ := h c
  obtain ⟨e0, e1, e2, e3, e4, e5, e6, e7⟩ := hagree c
  refine ⟨h1.trans ?_, h2.trans ?_, h3.trans ?_, h4.trans ?_, h5.trans ?_, hargs⟩
  · rw [e5]
  · rw [e1, e6]
  · rw [e4, e6, e7, e0, e1, Cert.ReferenceIdeal.RefValues.virialT_eq]
  · rw [e7, e3, Cert.ReferenceIdeal.RefValues.andevT_eq, Cert.ReferenceIdeal.RefValues.coefT_eq]; rfl
  · rw [e7, e2, Cert.ReferenceIdeal.RefValues.devT_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
